-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x1250000 32) (main_arg2 : FVec F S64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x1250000 : Shape := ⟨2, ![2, 1250000]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S1250000x64 : Shape := ⟨2, ![1250000, 64]⟩
abbrev S625000x128 : Shape := ⟨2, ![625000, 128]⟩
abbrev S625000x2 : Shape := ⟨2, ![625000, 2]⟩
abbrev S625000x4 : Shape := ⟨2, ![625000, 4]⟩
abbrev S1x64 : Shape := ⟨2, ![1, 64]⟩
abbrev S2x64 : Shape := ⟨2, ![2, 64]⟩
abbrev S128 : Shape := ⟨1, ![128]⟩
abbrev S5000x128 : Shape := ⟨2, ![5000, 128]⟩
abbrev S5000x4 : Shape := ⟨2, ![5000, 4]⟩
abbrev S5000x1 : Shape := ⟨2, ![5000, 1]⟩
abbrev S1x128 : Shape := ⟨2, ![1, 128]⟩

abbrev nBuf : Space → Nat
  | .hbm => 101
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .f32⟩
  | .hbm, ⟨9, _⟩ => ⟨S50000, .f32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .f32⟩
  | .hbm, ⟨14, _⟩ => ⟨S1250000, .f32⟩
  | .hbm, ⟨15, _⟩ => ⟨S_, .f32⟩
  | .hbm, ⟨16, _⟩ => ⟨S50000, .f32⟩
  | .hbm, ⟨17, _⟩ => ⟨S1250000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000, .f32⟩
  | .hbm, ⟨31, _⟩ => ⟨S_, .f32⟩
  | .hbm, ⟨32, _⟩ => ⟨S50000, .f32⟩
  | .hbm, ⟨33, _⟩ => ⟨S1250000x1, .i32⟩
  | .hbm, ⟨34, _⟩ => ⟨S50000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S_, .f32⟩
  | .hbm, ⟨45, _⟩ => ⟨S50000, .f32⟩
  | .hbm, ⟨46, _⟩ => ⟨S1250000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000, .f32⟩
  | .hbm, ⟨67, _⟩ => ⟨S_, .i32⟩
  | .hbm, ⟨68, _⟩ => ⟨S1250000, .i32⟩
  | .hbm, ⟨69, _⟩ => ⟨S1250000, .i1⟩
  | .hbm, ⟨70, _⟩ => ⟨S_, .i32⟩
  | .hbm, ⟨71, _⟩ => ⟨S1250000, .i32⟩
  | .hbm, ⟨72, _⟩ => ⟨S1250000, .i32⟩
  | .hbm, ⟨73, _⟩ => ⟨S1250000, .i32⟩
  | .hbm, ⟨74, _⟩ => ⟨S1250000x1, .i32⟩
  | .hbm, ⟨75, _⟩ => ⟨S1250000, .f32⟩
  | .hbm, ⟨76, _⟩ => ⟨S_, .f32⟩
  | .hbm, ⟨77, _⟩ => ⟨S1250000, .f32⟩
  | .hbm, ⟨78, _⟩ => ⟨S1250000, .f32⟩
  | .hbm, ⟨79, _⟩ => ⟨S1250000, .f32⟩
  | .hbm, ⟨80, _⟩ => ⟨S_, .i32⟩
  | .hbm, ⟨81, _⟩ => ⟨S1250000, .i32⟩
  | .hbm, ⟨82, _⟩ => ⟨S1250000, .i1⟩
  | .hbm, ⟨83, _⟩ => ⟨S_, .i32⟩
  | .hbm, ⟨84, _⟩ => ⟨S1250000, .i32⟩
  | .hbm, ⟨85, _⟩ => ⟨S1250000, .i32⟩
  | .hbm, ⟨86, _⟩ => ⟨S1250000, .i32⟩
  | .hbm, ⟨87, _⟩ => ⟨S1250000x1, .i32⟩
  | .hbm, ⟨88, _⟩ => ⟨S1250000x64, .f32⟩
  | .hbm, ⟨89, _⟩ => ⟨S625000x128, .f32⟩
  | .hbm, ⟨90, _⟩ => ⟨S625000x2, .f32⟩
  | .hbm, ⟨91, _⟩ => ⟨S625000x2, .f32⟩
  | .hbm, ⟨92, _⟩ => ⟨S625000x4, .f32⟩
  | .hbm, ⟨93, _⟩ => ⟨S1x64, .f32⟩
  | .hbm, ⟨94, _⟩ => ⟨S2x64, .f32⟩
  | .hbm, ⟨95, _⟩ => ⟨S128, .f32⟩
  | .hbm, ⟨96, _⟩ => ⟨S1x64, .f32⟩
  | .hbm, ⟨97, _⟩ => ⟨S2x64, .f32⟩
  | .hbm, ⟨98, _⟩ => ⟨S128, .f32⟩
  | .hbm, ⟨99, _⟩ => ⟨S625000x128, .f32⟩
  | .hbm, ⟨100, _⟩ => ⟨S1250000x64, .f32⟩
  | .local _ .vmem, ⟨0, _⟩ => ⟨S5000x128, .f32⟩
  | .local _ .vmem, ⟨1, _⟩ => ⟨S5000x128, .f32⟩
  | .local _ .vmem, ⟨2, _⟩ => ⟨S5000x4, .f32⟩
  | .local _ .vmem, ⟨3, _⟩ => ⟨S5000x4, .f32⟩
  | .local _ .vmem, ⟨4, _⟩ => ⟨S128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_c_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_c_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_c_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  reducesTo_S50000x64_S50000_d1 : S50000x64.ReducesTo [1] S50000
  h_S_ : 0 < S_.numel
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  shapeCasts_S1250000x64_S625000x128 : S1250000x64.ShapeCasts S625000x128
  shapeCasts_S1250000_S625000x2 : S1250000.ShapeCasts S625000x2
  concatenates_S625000x2_S625000x2_S625000x4_d1 : Shape.Concatenates [S625000x2, S625000x2] S625000x4 1
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x4_o0_0_S5000x1 : S5000x4.Slices ![0, 0] S5000x1
  slices_S5000x4_o0_1_S5000x1 : S5000x4.Slices ![0, 1] S5000x1
  slices_S5000x4_o0_2_S5000x1 : S5000x4.Slices ![0, 2] S5000x1
  slices_S5000x4_o0_3_S5000x1 : S5000x4.Slices ![0, 3] S5000x1
  iota_S5000x128_d1_w32 : S5000x128.Iotas .tc 32 [1]
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S625000x128_S1250000x64 : S625000x128.ShapeCasts S1250000x64
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  gather_S50000x64_S1250000x1_S1250000x64_1_0_n_n_0_1_164_wf : GatherDims.WF S50000x64 S1250000x1 S1250000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S625000x4.size a
  hwx0_1 : ∀ i : grid0.Coords, EltTy.bits .f32 = 32 ∨ (Rect.block (s := S625000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S625000x128.size a
  hwx0_4 : ∀ i : grid0.Coords, EltTy.bits .f32 = 32 ∨ (Rect.block (s := S625000x128) S5000x128.size (cc0_transform_4 i) (hinb0_4 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf

abbrev win0_0 : Pipeline.Window sig grid0 :=
  Pipeline.Window.ofSpec (Memref.whole main_v65) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v74) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S1250000, .f32⟩
  | .hbm, ⟨19, _⟩ => ⟨S_, .f32⟩
  | .hbm, ⟨20, _⟩ => ⟨S50000, .f32⟩
  | .hbm, ⟨21, _⟩ => ⟨S1250000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x64, .f32⟩
  | .hbm, ⟨29, _⟩ => ⟨S1250000x1, .i32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x1, .f32⟩
  | .hbm, ⟨48, _⟩ => ⟨S1250000x64, .f32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S50000x64, .f32⟩
  | .hbm, ⟨53, _⟩ => ⟨S1250000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S1250000x1, .f32⟩
  | .hbm, ⟨72, _⟩ => ⟨S_, .f32⟩
  | .hbm, ⟨73, _⟩ => ⟨S1250000x1, .f32⟩
  | .hbm, ⟨74, _⟩ => ⟨S1250000x1, .f32⟩
  | .hbm, ⟨75, _⟩ => ⟨S1250000x1, .f32⟩
  | .hbm, ⟨76, _⟩ => ⟨S1250000x64, .f32⟩
  | .hbm, ⟨77, _⟩ => ⟨S1250000x64, .f32⟩
  | .hbm, ⟨78, _⟩ => ⟨S1x64, .f32⟩
  | .hbm, ⟨79, _⟩ => ⟨S1250000x64, .f32⟩
  | .hbm, ⟨80, _⟩ => ⟨S1250000x64, .f32⟩
  | .hbm, ⟨81, _⟩ => ⟨S1x64, .f32⟩
  | .hbm, ⟨82, _⟩ => ⟨S1250000x64, .f32⟩
  | .hbm, ⟨83, _⟩ => ⟨S1250000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S1250000x1_S1250000x64_0_1 : S1250000x1.BroadcastsInDim S1250000x64 (![0, 1] : Fin 2 → Fin S1250000x64.rank)
  bcast_S_S1250000x1 : S_.BroadcastsInDim S1250000x1 (![] : Fin 0 → Fin S1250000x1.rank)
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  gather_S50000x64_S1250000x1_S1250000x64_1_0_n_n_0_1_164_wf : GatherDims.WF S50000x64 S1250000x1 S1250000x64 [1] [0] [] [0] [] 1 ![1, 64]
  scatter_S50000_S1250000x1_S1250000_n_0_0_1_wf : ScatterDims.WF S50000 S1250000x1 S1250000 [] [0] [0] 1
  scatter_S50000x64_S1250000x1_S1250000x64_1_0_0_1_wf : ScatterDims.WF S50000x64 S1250000x1 S1250000x64 [1] [0] [0] 1
  gather_S50000x1_S1250000x1_S1250000x1_1_0_n_n_0_1_11_wf : GatherDims.WF S50000x1 S1250000x1 S1250000x1 [1] [0] [] [0] [] 1 ![1, 1]

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def gather_S50000x1_S1250000x1_S1250000x1_1_0_n_n_0_1_11 : GatherDims S50000x1 S1250000x1 S1250000x1 where
  offsetDims := [1]
  collapsedSliceDims := [0]
  operandBatchingDims := []
  startIndicesBatchingDims := []
  startIndexMap := [0]
  indexVectorDim := 1
  sliceSizes := ![1, 1]
  wf := gather_S50000x1_S1250000x1_S1250000x1_1_0_n_n_0_1_11_wf

class Facts : Prop extends Facts₀ where

variable [Facts]
-- ==== Proof.NbrSpec.lean ====
/-
  Neighbour normalisation on a graph: the two formulas.

  A graph has N nodes carrying C features each (the matrix x) and E edges; edge e has a destination row number
  rowZ e (any integer: an edge whose row number is not a node's number belongs to no node), a node gr e whose
  statistics it reads, and a source node gc e whose features it carries.  Node n's edges are those whose row
  number is n.  Both formulas normalise, for every edge, the source's features by a mean and a variance taken
  over ALL features of ALL edges of the node the edge reads, then scale by g and shift by b:

  * the two-pass formula (refOut) averages per feature over the node's edges, then over the features, and
    takes the variance from the squared deviations;
  * the one-pass formula (kerOut) sums each source's features and squared features first, adds those sums over
    the node's edges, and takes the variance as the mean of squares minus the mean times the mean of the sums.

  The literal constants stay parameters: z (zero), o (one), cC (the number of features) and eps.
-/
import Idealize.ShloMosaic.PureOps.Ideal
import Idealize.ShloMosaic.Lib.ValueIdx

noncomputable section

open scoped BigOperators

namespace Cert.NbrNorm

open Idealize.ShloMosaic

variable {N E C : Nat}

/-- The edges of node n: those whose row number is n. -/
def seg (rowZ : Fin E → Int) (n : Fin N) : Finset (Fin E) :=
  Finset.univ.filter (fun e : Fin E => rowZ e = (n.val : Int))

section Formulas

variable (rowZ : Fin E → Int) (gr gc : Fin E → Fin N) (x : Fin N → Fin C → EReal) (g b : Fin C → EReal)
  (z o cC eps : EReal)

/-- The number of edges of node n, at least one. -/
def den (n : Fin N) : EReal := max (z + ∑ _e ∈ seg rowZ n, o) o

/-! ### Two passes -/

/-- Per feature, the mean over the node's edges of the sources' features. -/
def featMean (n : Fin N) (f : Fin C) : EReal := Ideal.div (z + ∑ e ∈ seg rowZ n, x (gc e) f) (den rowZ z o n)
/-- The mean over the features of those means. -/
def meanR (n : Fin N) : EReal := Ideal.div (z + ∑ f : Fin C, featMean rowZ gc x z o n f) cC
/-- An edge's deviation from the mean of the node it reads. -/
def devR (e : Fin E) (f : Fin C) : EReal := x (gc e) f - meanR rowZ gc x z o cC (gr e)
/-- Per feature, the mean over the node's edges of the squared deviations. -/
def featVar (n : Fin N) (f : Fin C) : EReal :=
  Ideal.div (z + ∑ e ∈ seg rowZ n, devR rowZ gr gc x z o cC e f * devR rowZ gr gc x z o cC e f) (den rowZ z o n)
/-- The mean over the features of those. -/
def varR (n : Fin N) : EReal := Ideal.div (z + ∑ f : Fin C, featVar rowZ gr gc x z o cC n f) cC
/-- The two-pass result. -/
def refOut (e : Fin E) (f : Fin C) : EReal :=
  g f * Ideal.div (devR rowZ gr gc x z o cC e f) (Ideal.sqrt (varR rowZ gr gc x z o cC (gr e) + eps)) + b f

/-! ### One pass -/

/-- A node's sum of features, and of squared features. -/
def rowSum (n : Fin N) : EReal := z + ∑ f : Fin C, x n f
def rowSq (n : Fin N) : EReal := z + ∑ f : Fin C, x n f * x n f
/-- Those sums added over the node's edges. -/
def s1 (n : Fin N) : EReal := z + ∑ e ∈ seg rowZ n, rowSum x z (gc e)
def s2 (n : Fin N) : EReal := z + ∑ e ∈ seg rowZ n, rowSq x z (gc e)
/-- The number of summands of a node: features times edges. -/
def fden (n : Fin N) : EReal := cC * den rowZ z o n
def meanK (n : Fin N) : EReal := Ideal.div (s1 rowZ gc x z n) (fden rowZ z o cC n)
def varK (n : Fin N) : EReal :=
  max (Ideal.div (s2 rowZ gc x z n - meanK rowZ gc x z o cC n * s1 rowZ gc x z n) (fden rowZ z o cC n)) z
/-- The one-pass result. -/
def kerOut (e : Fin E) (f : Fin C) : EReal :=
  g f * ((x (gc e) f - meanK rowZ gc x z o cC (gr e)) * Ideal.rsqrt (varK rowZ gc x z o cC (gr e) + eps)) + b f

end Formulas

/-! ### The edge numbers, from the index array -/

/-- A signed 32-bit row number made non-negative the way array indexing does: a negative one has the
    number of rows added. -/
def wrapBV (v : BitVec 32) : BitVec 32 := Scalar.select (IntOp.cmpi .slt v 0#32) (IntOp.addi v 50000#32) v
/-- A row number clamped into the array. -/
def clampRow (v : BitVec 32) : Fin 50000 := ⟨min v.toInt.toNat (50000 - 1), by omega⟩

section Edges
variable (edge : IVec ⟨2, ![2, 1250000]⟩ 32)
/-- Edge e's destination row number, read signed. -/
def rowOf (e : Fin 1250000) : Int := (edge (ValueIdx.ix2 (0 : Fin 2) e)).toInt
/-- The node whose statistics edge e reads: its destination, wrapped and clamped. -/
def grOf (e : Fin 1250000) : Fin 50000 := clampRow (wrapBV (edge (ValueIdx.ix2 (0 : Fin 2) e)))
/-- The node whose features edge e carries: its source, wrapped and clamped. -/
def gcOf (e : Fin 1250000) : Fin 50000 := clampRow (wrapBV (edge (ValueIdx.ix2 (1 : Fin 2) e)))
end Edges

end Cert.NbrNorm

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.NbrAlgebra.lean ====
/-
  Neighbour normalisation: the one-pass formula equals the two-pass formula.

  All the features are real numbers, so every quantity of both formulas is (the coercion of) a real
  number; the real quantities are defined here (dR, meanRr, varRr, meanKr, varKr …) and each extended-real
  quantity of the specification is shown to be the coercion of its real counterpart.  Over the reals, with
  s the edges of node n, k their number, d = max k 1, S1 = Σ_{e ∈ s} Σ_f X (gc e) f and S2 the same sum
  of squares:

  * the two means agree: (Σ_f (Σ_{e ∈ s} X (gc e) f) / d) / C = S1 / (C · d), by exchanging the two sums;
  * every edge e of node n reads node n (gr e = n), so its deviation is X (gc e) f − μ with μ the mean
    of n; the two-pass variance is Q / (C · d) with Q = Σ_{e ∈ s} Σ_f (X (gc e) f − μ)², and
    Q = S2 − 2 μ S1 + k · C · μ²; as k · C · μ = S1 (if k = 0 there are no edges and S1 = 0, otherwise
    d = k), Q = S2 − μ S1; and Q ≥ 0, so clamping the one-pass variance at zero changes nothing;
  * for v > 0 real, dividing by the square root of v is multiplying by its reciprocal square root.
-/
import proofs.«141859_j10153302687998_2_alg».proof.Proof.NbrSpec
import proofs.«141859_j10153302687998_2_alg».proof.Proof.LibFinite
import Mathlib.Tactic.Ring
import Mathlib.Tactic.FieldSimp
import Mathlib.Tactic.Positivity

noncomputable section

open scoped BigOperators

namespace Cert.NbrNorm

open Idealize.ShloMosaic LibFinite

variable {N E C : Nat}

/-! ### The real quantities -/

section RealDefs

variable (rowZ : Fin E → Int) (gr gc : Fin E → Fin N) (X : Fin N → Fin C → ℝ)

/-- The number of edges of node n, at least one. -/
def dR (n : Fin N) : ℝ := max ((seg rowZ n).card : ℝ) 1
def featMeanR (n : Fin N) (f : Fin C) : ℝ := (∑ e ∈ seg rowZ n, X (gc e) f) / dR rowZ n
def meanRr (n : Fin N) : ℝ := (∑ f : Fin C, featMeanR rowZ gc X n f) / (C : ℝ)
def devRr (e : Fin E) (f : Fin C) : ℝ := X (gc e) f - meanRr rowZ gc X (gr e)
def featVarR (n : Fin N) (f : Fin C) : ℝ :=
  (∑ e ∈ seg rowZ n, devRr rowZ gr gc X e f * devRr rowZ gr gc X e f) / dR rowZ n
def varRr (n : Fin N) : ℝ := (∑ f : Fin C, featVarR rowZ gr gc X n f) / (C : ℝ)
def s1R (n : Fin N) : ℝ := ∑ e ∈ seg rowZ n, ∑ f : Fin C, X (gc e) f
def s2R (n : Fin N) : ℝ := ∑ e ∈ seg rowZ n, ∑ f : Fin C, X (gc e) f * X (gc e) f
def meanKr (n : Fin N) : ℝ := s1R rowZ gc X n / ((C : ℝ) * dR rowZ n)
def varKr (n : Fin N) : ℝ :=
  max ((s2R rowZ gc X n - meanKr rowZ gc X n * s1R rowZ gc X n) / ((C : ℝ) * dR rowZ n)) 0
/-- The sum of the squared deviations from the mean of node n, over the features of the edges of n. -/
def qR (n : Fin N) : ℝ :=
  ∑ e ∈ seg rowZ n, ∑ f : Fin C, (X (gc e) f - meanRr rowZ gc X n) * (X (gc e) f - meanRr rowZ gc X n)

theorem dR_pos (n : Fin N) : 0 < dR rowZ n := lt_max_of_lt_right one_pos
theorem dR_ne_zero (n : Fin N) : dR rowZ n ≠ 0 := (dR_pos rowZ n).ne'

end RealDefs

/-! ### Sums of coercions -/

/-- A finite sum of coercions of reals is the coercion of the real sum. -/
theorem sum_eq_coe {ι : Type*} (s : Finset ι) (F : ι → EReal) (G : ι → ℝ)
    (h : ∀ i ∈ s, F i = ((G i : ℝ) : EReal)) : ∑ i ∈ s, F i = ((∑ i ∈ s, G i : ℝ) : EReal) := by
  rw [coe_finset_sum]; exact Finset.sum_congr rfl h

/-- Adding one per element counts the elements. -/
theorem sum_one_coe {ι : Type*} (s : Finset ι) : (∑ _i ∈ s, (1 : EReal)) = ((s.card : ℝ) : EReal) := by
  rw [sum_eq_coe s (fun _ => (1 : EReal)) (fun _ => (1 : ℝ)) (fun _ _ => EReal.coe_one.symm),
    Finset.sum_const, nsmul_eq_mul, mul_one]

theorem coe_max_real (a b : ℝ) : ((max a b : ℝ) : EReal) = max (a : EReal) (b : EReal) :=
  EReal.coe_strictMono.monotone.map_max

/-! ### Every quantity of the two formulas is the coercion of its real counterpart -/

section Coe

variable (rowZ : Fin E → Int) (gr gc : Fin E → Fin N) (x : Fin N → Fin C → EReal) (X : Fin N → Fin C → ℝ)

theorem den_coe (n : Fin N) : den rowZ 0 1 n = ((dR rowZ n : ℝ) : EReal) := by
  unfold den dR
  rw [zero_add, sum_one_coe, coe_max_real, EReal.coe_one]

theorem featMean_coe (hX : ∀ n f, x n f = ((X n f : ℝ) : EReal)) (n : Fin N) (f : Fin C) :
    featMean rowZ gc x 0 1 n f = ((featMeanR rowZ gc X n f : ℝ) : EReal) := by
  unfold featMean featMeanR
  rw [zero_add, den_coe, sum_eq_coe (seg rowZ n) _ (fun e => X (gc e) f) (fun e _ => hX _ _),
    div_coe_coe _ (dR_ne_zero rowZ n)]

theorem meanR_coe (hX : ∀ n f, x n f = ((X n f : ℝ) : EReal)) (hC : 0 < C) (n : Fin N) :
    meanR rowZ gc x 0 1 ((C : ℝ) : EReal) n = ((meanRr rowZ gc X n : ℝ) : EReal) := by
  have hC' : (C : ℝ) ≠ 0 := Nat.cast_ne_zero.mpr hC.ne'
  unfold meanR meanRr
  rw [zero_add, sum_eq_coe Finset.univ _ (fun f => featMeanR rowZ gc X n f)
    (fun f _ => featMean_coe rowZ gc x X hX n f), div_coe_coe _ hC']

theorem devR_coe (hX : ∀ n f, x n f = ((X n f : ℝ) : EReal)) (hC : 0 < C) (e : Fin E) (f : Fin C) :
    devR rowZ gr gc x 0 1 ((C : ℝ) : EReal) e f = ((devRr rowZ gr gc X e f : ℝ) : EReal) := by
  unfold devR devRr
  rw [hX, meanR_coe rowZ gc x X hX hC, ← EReal.coe_sub]

theorem featVar_coe (hX : ∀ n f, x n f = ((X n f : ℝ) : EReal)) (hC : 0 < C) (n : Fin N) (f : Fin C) :
    featVar rowZ gr gc x 0 1 ((C : ℝ) : EReal) n f = ((featVarR rowZ gr gc X n f : ℝ) : EReal) := by
  unfold featVar featVarR
  rw [zero_add, den_coe, sum_eq_coe (seg rowZ n) _
    (fun e => devRr rowZ gr gc X e f * devRr rowZ gr gc X e f)
    (fun e _ => by rw [devR_coe rowZ gr gc x X hX hC, ← EReal.coe_mul]),
    div_coe_coe _ (dR_ne_zero rowZ n)]

theorem varR_coe (hX : ∀ n f, x n f = ((X n f : ℝ) : EReal)) (hC : 0 < C) (n : Fin N) :
    varR rowZ gr gc x 0 1 ((C : ℝ) : EReal) n = ((varRr rowZ gr gc X n : ℝ) : EReal) := by
  have hC' : (C : ℝ) ≠ 0 := Nat.cast_ne_zero.mpr hC.ne'
  unfold varR varRr
  rw [zero_add, sum_eq_coe Finset.univ _ (fun f => featVarR rowZ gr gc X n f)
    (fun f _ => featVar_coe rowZ gr gc x X hX hC n f), div_coe_coe _ hC']

theorem rowSum_coe (hX : ∀ n f, x n f = ((X n f : ℝ) : EReal)) (n : Fin N) :
    rowSum x 0 n = ((∑ f : Fin C, X n f : ℝ) : EReal) := by
  unfold rowSum
  rw [zero_add, sum_eq_coe Finset.univ _ (fun f => X n f) (fun f _ => hX _ _)]

theorem rowSq_coe (hX : ∀ n f, x n f = ((X n f : ℝ) : EReal)) (n : Fin N) :
    rowSq x 0 n = ((∑ f : Fin C, X n f * X n f : ℝ) : EReal) := by
  unfold rowSq
  rw [zero_add, sum_eq_coe Finset.univ _ (fun f => X n f * X n f)
    (fun f _ => by rw [hX, ← EReal.coe_mul])]

theorem s1_coe (hX : ∀ n f, x n f = ((X n f : ℝ) : EReal)) (n : Fin N) :
    s1 rowZ gc x 0 n = ((s1R rowZ gc X n : ℝ) : EReal) := by
  unfold s1 s1R
  rw [zero_add, sum_eq_coe (seg rowZ n) _ (fun e => ∑ f : Fin C, X (gc e) f)
    (fun e _ => rowSum_coe x X hX _)]

theorem s2_coe (hX : ∀ n f, x n f = ((X n f : ℝ) : EReal)) (n : Fin N) :
    s2 rowZ gc x 0 n = ((s2R rowZ gc X n : ℝ) : EReal) := by
  unfold s2 s2R
  rw [zero_add, sum_eq_coe (seg rowZ n) _ (fun e => ∑ f : Fin C, X (gc e) f * X (gc e) f)
    (fun e _ => rowSq_coe x X hX _)]

theorem fden_coe (n : Fin N) :
    fden rowZ 0 1 ((C : ℝ) : EReal) n = (((C : ℝ) * dR rowZ n : ℝ) : EReal) := by
  unfold fden
  rw [den_coe, ← EReal.coe_mul]

theorem fdenR_ne_zero (hC : 0 < C) (n : Fin N) : (C : ℝ) * dR rowZ n ≠ 0 :=
  mul_ne_zero (Nat.cast_ne_zero.mpr hC.ne') (dR_ne_zero rowZ n)

theorem meanK_coe (hX : ∀ n f, x n f = ((X n f : ℝ) : EReal)) (hC : 0 < C) (n : Fin N) :
    meanK rowZ gc x 0 1 ((C : ℝ) : EReal) n = ((meanKr rowZ gc X n : ℝ) : EReal) := by
  unfold meanK meanKr
  rw [s1_coe rowZ gc x X hX, fden_coe, div_coe_coe _ (fdenR_ne_zero rowZ hC n)]

theorem varK_coe (hX : ∀ n f, x n f = ((X n f : ℝ) : EReal)) (hC : 0 < C) (n : Fin N) :
    varK rowZ gc x 0 1 ((C : ℝ) : EReal) n = ((varKr rowZ gc X n : ℝ) : EReal) := by
  unfold varK varKr
  rw [s2_coe rowZ gc x X hX, meanK_coe rowZ gc x X hX hC, s1_coe rowZ gc x X hX, fden_coe,
    ← EReal.coe_mul, ← EReal.coe_sub, div_coe_coe _ (fdenR_ne_zero rowZ hC n), coe_max_real,
    EReal.coe_zero]

end Coe

/-! ### The identities over the reals -/

section RealAlg

variable (rowZ : Fin E → Int) (gr gc : Fin E → Fin N) (X : Fin N → Fin C → ℝ)

/-- The two means agree: exchange the sum over the features and the sum over the edges. -/
theorem meanRr_eq_meanKr (n : Fin N) : meanRr rowZ gc X n = meanKr rowZ gc X n := by
  unfold meanRr meanKr featMeanR s1R
  rw [← Finset.sum_div, Finset.sum_comm, div_div, mul_comm (dR rowZ n)]

/-- An edge of node n reads node n. -/
theorem gr_eq_of_mem (hgr : ∀ (e : Fin E) (n : Fin N), rowZ e = (n.val : Int) → gr e = n)
    {e : Fin E} {n : Fin N} (he : e ∈ seg rowZ n) : gr e = n :=
  hgr e n (Finset.mem_filter.mp he).2

/-- The two-pass variance is the sum of the squared deviations over the number of summands. -/
theorem varRr_eq_qR (hgr : ∀ (e : Fin E) (n : Fin N), rowZ e = (n.val : Int) → gr e = n) (n : Fin N) :
    varRr rowZ gr gc X n = qR rowZ gc X n / ((C : ℝ) * dR rowZ n) := by
  unfold varRr featVarR qR
  rw [← Finset.sum_div, Finset.sum_comm, div_div, mul_comm (dR rowZ n)]
  congr 1
  refine Finset.sum_congr rfl fun e he => Finset.sum_congr rfl fun f _ => ?_
  unfold devRr
  rw [gr_eq_of_mem rowZ gr hgr he]

theorem qR_nonneg (n : Fin N) : 0 ≤ qR rowZ gc X n :=
  Finset.sum_nonneg fun _ _ => Finset.sum_nonneg fun _ _ => mul_self_nonneg _

/-- Expanding the squares: Σ (X − μ)² = S2 − 2 μ S1 + k · (C · μ²). -/
theorem qR_expand (n : Fin N) :
    qR rowZ gc X n = s2R rowZ gc X n - 2 * meanRr rowZ gc X n * s1R rowZ gc X n
      + ((seg rowZ n).card : ℝ) * ((C : ℝ) * meanRr rowZ gc X n * meanRr rowZ gc X n) := by
  unfold qR s2R s1R
  generalize meanRr rowZ gc X n = μ
  have h1 : ∀ e : Fin E, ∑ f : Fin C, (X (gc e) f - μ) * (X (gc e) f - μ)
      = (∑ f : Fin C, X (gc e) f * X (gc e) f) - 2 * μ * (∑ f : Fin C, X (gc e) f) + (C : ℝ) * μ * μ := by
    intro e
    have h : ∀ f : Fin C, (X (gc e) f - μ) * (X (gc e) f - μ)
        = X (gc e) f * X (gc e) f - 2 * μ * X (gc e) f + μ * μ := fun f => by ring
    rw [Finset.sum_congr rfl fun f _ => h f, Finset.sum_add_distrib, Finset.sum_sub_distrib,
      ← Finset.mul_sum, Finset.sum_const, Finset.card_univ, Fintype.card_fin, nsmul_eq_mul]
    ring
  rw [Finset.sum_congr rfl fun e _ => h1 e, Finset.sum_add_distrib, Finset.sum_sub_distrib,
    ← Finset.mul_sum, Finset.sum_const, nsmul_eq_mul]

/-- The number of summands times the mean is the sum: k · C · μ = S1 (no edges: both sides are zero). -/
theorem card_mul_mean (hC : 0 < C) (n : Fin N) :
    ((seg rowZ n).card : ℝ) * ((C : ℝ) * meanRr rowZ gc X n) = s1R rowZ gc X n := by
  have hC' : (C : ℝ) ≠ 0 := Nat.cast_ne_zero.mpr hC.ne'
  rw [meanRr_eq_meanKr]
  unfold meanKr
  rcases Nat.eq_zero_or_pos (seg rowZ n).card with h0 | hpos
  · have hs : seg rowZ n = ∅ := Finset.card_eq_zero.mp h0
    have h1 : s1R rowZ gc X n = 0 := by unfold s1R; rw [hs, Finset.sum_empty]
    rw [h0, h1]; simp
  · have hk : (1 : ℝ) ≤ ((seg rowZ n).card : ℝ) := by exact_mod_cast hpos
    have hk0 : ((seg rowZ n).card : ℝ) ≠ 0 := by positivity
    have hd : dR rowZ n = ((seg rowZ n).card : ℝ) := by unfold dR; exact max_eq_left hk
    rw [hd]
    field_simp

/-- Hence Σ (X − μ)² = S2 − μ S1. -/
theorem qR_eq (hC : 0 < C) (n : Fin N) :
    qR rowZ gc X n = s2R rowZ gc X n - meanRr rowZ gc X n * s1R rowZ gc X n := by
  have h := card_mul_mean rowZ gc X hC n
  rw [qR_expand]
  have h2 : ((seg rowZ n).card : ℝ) * ((C : ℝ) * meanRr rowZ gc X n * meanRr rowZ gc X n)
      = meanRr rowZ gc X n * s1R rowZ gc X n := by
    rw [← h]; ring
  rw [h2]; ring

theorem varRr_nonneg (hgr : ∀ (e : Fin E) (n : Fin N), rowZ e = (n.val : Int) → gr e = n) (hC : 0 < C)
    (n : Fin N) : 0 ≤ varRr rowZ gr gc X n := by
  rw [varRr_eq_qR rowZ gr gc X hgr]
  exact div_nonneg (qR_nonneg rowZ gc X n)
    (mul_nonneg (Nat.cast_nonneg C) (dR_pos rowZ n).le)

/-- The one-pass variance is the two-pass variance: the clamp at zero changes nothing. -/
theorem varKr_eq_varRr (hgr : ∀ (e : Fin E) (n : Fin N), rowZ e = (n.val : Int) → gr e = n) (hC : 0 < C)
    (n : Fin N) : varKr rowZ gc X n = varRr rowZ gr gc X n := by
  have h0 := varRr_nonneg rowZ gr gc X hgr hC n
  have h1 : (s2R rowZ gc X n - meanKr rowZ gc X n * s1R rowZ gc X n) / ((C : ℝ) * dR rowZ n)
      = varRr rowZ gr gc X n := by
    rw [← meanRr_eq_meanKr, ← qR_eq rowZ gc X hC, ← varRr_eq_qR rowZ gr gc X hgr]
  unfold varKr
  rw [h1]
  exact max_eq_left h0

end RealAlg

/-! ### The two formulas agree -/

theorem kerOut_eq_refOut {N E C : Nat} (rowZ : Fin E → Int) (gr gc : Fin E → Fin N) (x : Fin N → Fin C → EReal)
    (g b : Fin C → EReal) (z o cC eps : EReal)
    (hx : ∀ n f, LibFinite.IsReal (x n f)) (hz : z = 0) (ho : o = 1) (hC : cC = ((C : ℝ) : EReal)) (hCpos : 0 < C)
    (heps : ∃ ε : ℝ, 0 < ε ∧ eps = (ε : EReal))
    (hgr : ∀ (e : Fin E) (n : Fin N), rowZ e = (n.val : Int) → gr e = n)
    (e : Fin E) (f : Fin C) :
    kerOut rowZ gr gc x g b z o cC eps e f = refOut rowZ gr gc x g b z o cC eps e f := by
  obtain ⟨ε, hε, rfl⟩ := heps
  subst hz ho hC
  have hx' : ∀ n f, ∃ r : ℝ, x n f = (r : EReal) := hx
  choose X hX using hx'
  have hv : 0 < varRr rowZ gr gc X (gr e) + ε :=
    add_pos_of_nonneg_of_pos (varRr_nonneg rowZ gr gc X hgr hCpos (gr e)) hε
  have hs : Real.sqrt (varRr rowZ gr gc X (gr e) + ε) ≠ 0 := (Real.sqrt_pos.mpr hv).ne'
  unfold kerOut refOut
  rw [devR_coe rowZ gr gc x X hX hCpos, varR_coe rowZ gr gc x X hX hCpos, meanK_coe rowZ gc x X hX hCpos,
    varK_coe rowZ gc x X hX hCpos, hX, ← EReal.coe_sub, ← EReal.coe_add, ← EReal.coe_add,
    varKr_eq_varRr rowZ gr gc X hgr hCpos, ← meanRr_eq_meanKr, rsqrt_coe_pos hv, Ideal.sqrt_coe,
    if_neg (not_lt.mpr hv.le), div_coe_coe _ hs, ← EReal.coe_mul, div_eq_mul_inv]
  rfl

end Cert.NbrNorm

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.LibVecIndex.lean ====
/-
  A gather and a scatter-add of a flat array, read at an index.

  A vector x : [N] gathered at a column of positions idx : [E, 1] gives the vector whose entry e is the entry
  of x numbered idx[e, 0] (read signed and clamped into [0, N - 1]).  Scatter-adding the entries of
  upd : [E] into x at those positions adds to every entry n of x the entries of upd whose position, read
  signed and not clamped, is n; a position outside [0, N) contributes nothing.
-/
import Idealize.ShloMosaic.PureOps.Ideal
import Idealize.ShloMosaic.Lib.ValueIdx

noncomputable section

open scoped BigOperators

namespace Cert.GNN.VecIndex

open Idealize.ShloMosaic Idealize.ShloMosaic.ValueIdx

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-! ## The gather -/

section Gather
variable {α : Type}

/-- The dimension numbers of a flat gather: operand [N], start indices [E, 1] (the index vector on axis 1, of
    length one, naming operand axis 0), result [E], no offset axis, slices [1] with operand axis 0 collapsed. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N - 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The scatter-add -/

section Scatter

/-- The dimension numbers of a flat scatter: operand [N], scatter indices [E, 1] (the index vector on axis 1, of
    length one, naming operand axis 0), updates [E], no window axis, operand axis 0 inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update j starts at the position idx[j 0, 0], read signed. -/
theorem start_pos (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only axis is inserted: no window coordinate. -/
theorem window_pos (j : (⟨1, ![E]⟩ : Shape).Idx) : (vecScatterDims N E wf).window j 0 = 0 := by
  unfold ScatterDims.window
  rw [dif_neg (show ¬ (0 : Fin 1) ∈ (vecScatterDims N E wf).sKept from
    (by decide : (0 : Fin 1) ∉ (List.finRange 1).filter (fun a => a ∉ [(0 : Fin 1)])))]

/-- Update j lands at n exactly when its position, read signed, is n. -/
theorem resultIdx?_vec_eq_some_iff (idx : IVec ⟨2, ![E, 1]⟩ w) (j : (⟨1, ![E]⟩ : Shape).Idx) (n : Fin N) :
    (vecScatterDims N E wf).resultIdx? j idx = some (ix1 n) ↔
      (idx (ix2 (j 0) (0 : Fin 1))).toInt = (n.val : Int) := by
  unfold ScatterDims.resultIdx?
  constructor
  · intro h
    split at h
    · rename_i hh
      have h' := Option.some.inj h
      have h0 : ((vecScatterDims N E wf).start j idx 0 + ((vecScatterDims N E wf).window j 0 : Int)).toNat = n.val :=
        congrArg (fun f => (f 0).val) h'
      have hh0 := (hh 0).1
      rw [start_pos, window_pos] at h0 hh0
      omega
    · exact absurd h (by simp)
  · intro h0
    have hn := n.isLt
    rw [dif_pos]
    · congr 1
      funext a
      obtain rfl : a = 0 := Subsingleton.elim _ _
      refine Fin.ext ?_
      show ((vecScatterDims N E wf).start j idx 0 + ((vecScatterDims N E wf).window j 0 : Int)).toNat = n.val
      rw [start_pos, window_pos, h0]; omega
    · intro a
      obtain rfl : a = 0 := Subsingleton.elim _ _
      show 0 ≤ (vecScatterDims N E wf).start j idx 0 + ((vecScatterDims N E wf).window j 0 : Int) ∧
        (vecScatterDims N E wf).start j idx 0 + ((vecScatterDims N E wf).window j 0 : Int) < (N : Int)
      rw [start_pos, window_pos, h0]; omega

/-- THE FLAT SCATTER-ADD READ AT n: the operand's entry plus the update entries whose position, read signed, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl (fun e _ => ?_)
  refine if_congr ?_ rfl rfl
  rw [resultIdx?_vec_eq_some_iff]
  exact Iff.rfl

/-- The same for Host.scatterAdd at the exact instance, which is that sum by definition. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : Int)),
          upd (ix1 e) :=
  scatterAdd_vec_apply wf x idx upd n

end Scatter

end Cert.GNN.VecIndex

end
-- ==== Proof.RefValue.lean ====
import proofs.«141859_j10153302687998_2_alg».proof.Proof.Gen.ReferenceIdeal.Read
import proofs.«141859_j10153302687998_2_alg».proof.Proof.NbrSpec
import proofs.«141859_j10153302687998_2_alg».proof.Proof.LibRowIndex
import proofs.«141859_j10153302687998_2_alg».proof.Proof.LibVecIndex

/-
  The reference program's result read at an index: it is the two-pass neighbour normalisation
  (Cert.NbrNorm.refOut) of the feature matrix over the edges of the index array.
-/

noncomputable section

open scoped BigOperators

namespace Cert.NbrNorm.Ref

open Cert.ReferenceIdeal Cert.ReferenceIdeal.Read Idealize.ShloMosaic Idealize.ShloMosaic.ValueIdx

/-! ## The index columns -/

section Columns
variable {F : FTy → Type} [FloatOps F]

/-- Row 0 of the index array, flattened: edge e's destination row number. -/
theorem v1_at (edge : IVec S2x1250000 32) (e : Fin 1250000) :
    val_main_v1 (F := F) edge (ix1 e) = edge (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the index array, flattened: edge e's source row number. -/
theorem v3_at (edge : IVec S2x1250000 32) (e : Fin 1250000) :
    val_main_v3 (F := F) edge (ix1 e) = edge (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The source row numbers made non-negative. -/
theorem v8_at (edge : IVec S2x1250000 32) (e : Fin 1250000) :
    val_main_v8 (F := F) edge (ix1 e) = wrapBV (edge (ix2 (1 : Fin 2) e)) := by
  rw [val_main_v8_apply, val_main_v5_apply, val_main_v7_apply, val_main_v4_apply, val_main_v6_apply,
    val_main_c_apply, val_main_c_0_apply, v3_at]
  rfl

/-- The destination row numbers made non-negative (first copy). -/
theorem v31_at (edge : IVec S2x1250000 32) (e : Fin 1250000) :
    val_main_v31 (F := F) edge (ix1 e) = wrapBV (edge (ix2 (0 : Fin 2) e)) := by
  rw [val_main_v31_apply, val_main_v28_apply, val_main_v30_apply, val_main_v27_apply, val_main_v29_apply,
    val_main_c_6_apply, val_main_c_7_apply, v1_at]
  rfl

/-- The destination row numbers made non-negative (second copy). -/
theorem v50_at (edge : IVec S2x1250000 32) (e : Fin 1250000) :
    val_main_v50 (F := F) edge (ix1 e) = wrapBV (edge (ix2 (0 : Fin 2) e)) := by
  rw [val_main_v50_apply, val_main_v47_apply, val_main_v49_apply, val_main_v46_apply, val_main_v48_apply,
    val_main_c_11_apply, val_main_c_12_apply, v1_at]
  rfl

/-- The index of a flat vector that a column [E, 1] made of it reads at row e. -/
local macro "col_idx_tac" : tactic => `(tactic| (funext a; match a with | ⟨0, _⟩ => rfl))

theorem v9_at (edge : IVec S2x1250000 32) (e : Fin 1250000) :
    val_main_v9 (F := F) edge (ix2 e (0 : Fin 1)) = wrapBV (edge (ix2 (1 : Fin 2) e)) := by
  rw [val_main_v9_apply, show idx_main_v9 (ix2 e (0 : Fin 1)) = ix1 e by col_idx_tac, v8_at]

theorem v13_at (edge : IVec S2x1250000 32) (e : Fin 1250000) :
    val_main_v13 (F := F) edge (ix2 e (0 : Fin 1)) = edge (ix2 (0 : Fin 2) e) := by
  rw [val_main_v13_apply, show idx_main_v13 (ix2 e (0 : Fin 1)) = ix1 e by col_idx_tac, v1_at]

theorem v19_at (edge : IVec S2x1250000 32) (e : Fin 1250000) :
    val_main_v19 (F := F) edge (ix2 e (0 : Fin 1)) = edge (ix2 (0 : Fin 2) e) := by
  rw [val_main_v19_apply, show idx_main_v19 (ix2 e (0 : Fin 1)) = ix1 e by col_idx_tac, v1_at]

theorem v38_at (edge : IVec S2x1250000 32) (e : Fin 1250000) :
    val_main_v38 (F := F) edge (ix2 e (0 : Fin 1)) = edge (ix2 (0 : Fin 2) e) := by
  rw [val_main_v38_apply, show idx_main_v38 (ix2 e (0 : Fin 1)) = ix1 e by col_idx_tac, v1_at]

theorem v32_at (edge : IVec S2x1250000 32) (e : Fin 1250000) :
    val_main_v32 (F := F) edge (ix2 e (0 : Fin 1)) = wrapBV (edge (ix2 (0 : Fin 2) e)) := by
  rw [val_main_v32_apply, show idx_main_v32 (ix2 e (0 : Fin 1)) = ix1 e by col_idx_tac, v31_at]

theorem v51_at (edge : IVec S2x1250000 32) (e : Fin 1250000) :
    val_main_v51 (F := F) edge (ix2 e (0 : Fin 1)) = wrapBV (edge (ix2 (0 : Fin 2) e)) := by
  rw [val_main_v51_apply, show idx_main_v51 (ix2 e (0 : Fin 1)) = ix1 e by col_idx_tac, v50_at]

end Columns

/-! ## The gathered features -/

/-- Edge e carries the features of its source node. -/
theorem v10_at (X : FVec Ideal S50000x64 .f32) (edge : IVec S2x1250000 32) (e : Fin 1250000) (k : Fin 64) :
    val_main_v10 (F := Ideal) X edge (ix2 e k) = X (ix2 (gcOf edge e) k) := by
  unfold val_main_v10
  show Host.gather (Cert.GNN.RowIndex.rowGatherDims 50000 1250000 64 _) X (val_main_v9 (F := Ideal) edge) (ix2 e k) = _
  rw [Cert.GNN.RowIndex.gather_row_apply (by decide)]
  have h := v9_at (F := Ideal) edge e
  congr 2
  refine Fin.ext ?_
  show min (BitVec.toInt (val_main_v9 (F := Ideal) edge (ix2 e (0 : Fin 1)))).toNat (50000 - 1) = (gcOf edge e).val
  rw [h]
  rfl

/-- The per-feature sums over a node's edges. -/
theorem v20_at (X : FVec Ideal S50000x64 .f32) (edge : IVec S2x1250000 32) (n : Fin 50000) (k : Fin 64) :
    val_main_v20 (F := Ideal) X edge (ix2 n k)
      = Ideal.ofBits .f32 0x00000000#32 + ∑ e ∈ seg (rowOf edge) n, X (ix2 (gcOf edge e) k) := by
  unfold val_main_v20
  have hd : scatter_S50000x64_S1250000x1_S1250000x64_1_0_0_1
      = Cert.GNN.RowIndex.rowScatterDims 50000 1250000 64 Facts₀.scatter_S50000x64_S1250000x1_S1250000x64_1_0_0_1_wf := rfl
  rw [hd, Cert.GNN.RowIndex.host_scatterAdd_row_apply (φ := .f32), val_main_v18_apply, val_main_cst_3_apply]
  simp only [v19_at, v10_at]
  rfl

/-! ## The statistics of a node -/

local notation "zF" => Ideal.ofBits FTy.f32 0x00000000#32
local notation "oF" => Ideal.ofBits FTy.f32 0x3F800000#32
local notation "cF" => Ideal.ofBits FTy.f32 0x42800000#32
local notation "eF" => Ideal.ofBits FTy.f32 0x3727C5AC#32

/-- Two indices of a rank-one shape with the same coordinate. -/
local macro "idx1_tac" : tactic =>
  `(tactic| (funext a; match a with | ⟨0, _⟩ => first | rfl | exact Fin.ext rfl))
/-- Two indices of a rank-two shape with the same coordinates. -/
local macro "idx2_tac" : tactic =>
  `(tactic| (funext a; match a with
      | ⟨0, _⟩ => first | rfl | exact Fin.ext rfl
      | ⟨1, _⟩ => first | rfl | exact Fin.ext rfl))

/-- The number of edges of a node, before the clamp at one. -/
theorem v14_at (edge : IVec S2x1250000 32) (n : Fin 50000) :
    val_main_v14 (F := Ideal) edge (ix1 n) = zF + ∑ _e ∈ seg (rowOf edge) n, oF := by
  unfold val_main_v14
  have hd : scatter_S50000_S1250000x1_S1250000_n_0_0_1
      = Cert.GNN.VecIndex.vecScatterDims 50000 1250000 Facts₀.scatter_S50000_S1250000x1_S1250000_n_0_0_1_wf := rfl
  rw [hd, Cert.GNN.VecIndex.host_scatterAdd_vec_apply (φ := .f32), val_main_v12_apply, val_main_cst_1_apply]
  simp only [v13_at, val_main_v11_apply, val_main_cst_apply]
  rfl

theorem v16_at (edge : IVec S2x1250000 32) (n : Fin 50000) :
    val_main_v16 (F := Ideal) edge (ix1 n) = den (rowOf edge) zF oF n := by
  rw [val_main_v16_apply, v14_at, val_main_v15_apply, val_main_cst_2_apply]
  rfl

theorem v17_at (edge : IVec S2x1250000 32) (n : Fin 50000) :
    val_main_v17 (F := Ideal) edge (ix2 n (0 : Fin 1)) = den (rowOf edge) zF oF n := by
  rw [val_main_v17_apply, show idx_main_v17 (ix2 n (0 : Fin 1)) = ix1 n by idx1_tac, v16_at]

theorem v21_at (edge : IVec S2x1250000 32) (n : Fin 50000) (k : Fin 64) :
    val_main_v21 (F := Ideal) edge (ix2 n k) = den (rowOf edge) zF oF n := by
  rw [val_main_v21_apply, show idx_main_v21 (ix2 n k) = ix2 n (0 : Fin 1) by idx2_tac, v17_at]

theorem v40_at (edge : IVec S2x1250000 32) (n : Fin 50000) (k : Fin 64) :
    val_main_v40 (F := Ideal) edge (ix2 n k) = den (rowOf edge) zF oF n := by
  rw [val_main_v40_apply, show idx_main_v40 (ix2 n k) = ix2 n (0 : Fin 1) by idx2_tac, v17_at]

section Two
variable (X : FVec Ideal S50000x64 .f32) (edge : IVec S2x1250000 32)

/-- The feature matrix as a function of node and feature. -/
local notation "xF" => (fun (n : Fin 50000) (k : Fin 64) => X (ix2 n k))

theorem v22_at (n : Fin 50000) (k : Fin 64) :
    val_main_v22 (F := Ideal) X edge (ix2 n k) = featMean (rowOf edge) (gcOf edge) xF zF oF n k := by
  rw [val_main_v22_apply, v20_at, v21_at]
  rfl

theorem v23_at (n : Fin 50000) :
    val_main_v23 (F := Ideal) X edge (ix1 n)
      = zF + ∑ f : Fin 64, featMean (rowOf edge) (gcOf edge) xF zF oF n f := by
  rw [val_main_v23_apply, val_main_cst_4_apply]
  refine congrArg (_ + ·) (Finset.sum_congr rfl fun k _ => ?_)
  rw [show idx_main_v23 (ix1 n) k = ix2 n k by idx2_tac, v22_at]

theorem v26_at (n : Fin 50000) :
    val_main_v26 (F := Ideal) X edge (ix2 n (0 : Fin 1)) = meanR (rowOf edge) (gcOf edge) xF zF oF cF n := by
  rw [val_main_v26_apply, val_main_v24_apply, show idx_main_v24 (ix2 n (0 : Fin 1)) = ix1 n by idx1_tac, v23_at,
    val_main_v25_apply, val_main_cst_5_apply]
  rfl

/-- A column [N, 1] gathered at a column of row numbers reads the row the number names, clamped. -/
theorem gather_col_at (y : FVec Ideal S50000x1 .f32) (idx : IVec S1250000x1 32) (e : Fin 1250000) (v : BitVec 32)
    (h : idx (ix2 e (0 : Fin 1)) = v) :
    Host.gather gather_S50000x1_S1250000x1_S1250000x1_1_0_n_n_0_1_11 y idx (ix2 e (0 : Fin 1))
      = y (ix2 (clampRow v) (0 : Fin 1)) := by
  have hd : gather_S50000x1_S1250000x1_S1250000x1_1_0_n_n_0_1_11
      = Cert.GNN.RowIndex.rowGatherDims 50000 1250000 1 Facts₀.gather_S50000x1_S1250000x1_S1250000x1_1_0_n_n_0_1_11_wf := rfl
  rw [hd, Cert.GNN.RowIndex.gather_row_apply (by decide)]
  subst h
  rfl

theorem v33_at (e : Fin 1250000) :
    val_main_v33 (F := Ideal) X edge (ix2 e (0 : Fin 1))
      = meanR (rowOf edge) (gcOf edge) xF zF oF cF (grOf edge e) := by
  unfold val_main_v33
  rw [gather_col_at _ _ e _ (v32_at (F := Ideal) edge e)]
  exact v26_at X edge (grOf edge e)

theorem v35_at (e : Fin 1250000) (k : Fin 64) :
    val_main_v35 (F := Ideal) X edge (ix2 e k)
      = devR (rowOf edge) (grOf edge) (gcOf edge) xF zF oF cF e k := by
  rw [val_main_v35_apply, v10_at, val_main_v34_apply, show idx_main_v34 (ix2 e k) = ix2 e (0 : Fin 1) by idx2_tac,
    v33_at]
  rfl

theorem v39_at (n : Fin 50000) (k : Fin 64) :
    val_main_v39 (F := Ideal) X edge (ix2 n k)
      = zF + ∑ e ∈ seg (rowOf edge) n, devR (rowOf edge) (grOf edge) (gcOf edge) xF zF oF cF e k
          * devR (rowOf edge) (grOf edge) (gcOf edge) xF zF oF cF e k := by
  unfold val_main_v39
  have hd : scatter_S50000x64_S1250000x1_S1250000x64_1_0_0_1
      = Cert.GNN.RowIndex.rowScatterDims 50000 1250000 64 Facts₀.scatter_S50000x64_S1250000x1_S1250000x64_1_0_0_1_wf := rfl
  rw [hd, Cert.GNN.RowIndex.host_scatterAdd_row_apply (φ := .f32), val_main_v37_apply, val_main_cst_8_apply]
  simp only [v38_at, val_main_v36_apply, v35_at]
  rfl

theorem v41_at (n : Fin 50000) (k : Fin 64) :
    val_main_v41 (F := Ideal) X edge (ix2 n k)
      = featVar (rowOf edge) (grOf edge) (gcOf edge) xF zF oF cF n k := by
  rw [val_main_v41_apply, v39_at, v40_at]
  rfl

theorem v42_at (n : Fin 50000) :
    val_main_v42 (F := Ideal) X edge (ix1 n)
      = zF + ∑ f : Fin 64, featVar (rowOf edge) (grOf edge) (gcOf edge) xF zF oF cF n f := by
  rw [val_main_v42_apply, val_main_cst_9_apply]
  refine congrArg (_ + ·) (Finset.sum_congr rfl fun k _ => ?_)
  rw [show idx_main_v42 (ix1 n) k = ix2 n k by idx2_tac, v41_at]

theorem v45_at (n : Fin 50000) :
    val_main_v45 (F := Ideal) X edge (ix2 n (0 : Fin 1))
      = varR (rowOf edge) (grOf edge) (gcOf edge) xF zF oF cF n := by
  rw [val_main_v45_apply, val_main_v43_apply, show idx_main_v43 (ix2 n (0 : Fin 1)) = ix1 n by idx1_tac, v42_at,
    val_main_v44_apply, val_main_cst_10_apply]
  rfl

theorem v52_at (e : Fin 1250000) :
    val_main_v52 (F := Ideal) X edge (ix2 e (0 : Fin 1))
      = varR (rowOf edge) (grOf edge) (gcOf edge) xF zF oF cF (grOf edge e) := by
  unfold val_main_v52
  rw [gather_col_at _ _ e _ (v51_at (F := Ideal) edge e)]
  exact v45_at X edge (grOf edge e)

theorem v57_at (e : Fin 1250000) (k : Fin 64) :
    val_main_v57 (F := Ideal) X edge (ix2 e k)
      = Ideal.div (devR (rowOf edge) (grOf edge) (gcOf edge) xF zF oF cF e k)
          (Ideal.sqrt (varR (rowOf edge) (grOf edge) (gcOf edge) xF zF oF cF (grOf edge e) + eF)) := by
  rw [val_main_v57_apply, v35_at, val_main_v56_apply, show idx_main_v56 (ix2 e k) = ix2 e (0 : Fin 1) by idx2_tac,
    val_main_v55_apply, val_main_v54_apply, v52_at, val_main_v53_apply, val_main_cst_13_apply]
  rfl

end Two

/-! ## The result -/

theorem v59_at (gam : FVec Ideal S64 .f32) (e : Fin 1250000) (k : Fin 64) :
    val_main_v59 (F := Ideal) gam (ix2 e k) = gam (ix1 k) := by
  rw [val_main_v59_apply, val_main_v58_apply]
  congr 1
  idx1_tac

theorem v62_at (bet : FVec Ideal S64 .f32) (e : Fin 1250000) (k : Fin 64) :
    val_main_v62 (F := Ideal) bet (ix2 e k) = bet (ix1 k) := by
  rw [val_main_v62_apply, val_main_v61_apply]
  congr 1
  idx1_tac

/-- THE REFERENCE'S RESULT AT (e, f): the two-pass neighbour normalisation. -/
theorem val_eq_refOut (X : FVec Ideal S50000x64 .f32) (edge : IVec S2x1250000 32) (gam bet : FVec Ideal S64 .f32)
    (e : Fin 1250000) (f : Fin 64) :
    val_main_v63 (F := Ideal) X edge gam bet (ix2 e f)
      = Cert.NbrNorm.refOut (Cert.NbrNorm.rowOf edge) (Cert.NbrNorm.grOf edge) (Cert.NbrNorm.gcOf edge)
          (fun n k => X (ix2 n k)) (fun k => gam (ix1 k)) (fun k => bet (ix1 k))
          (Ideal.ofBits .f32 0x00000000#32) (Ideal.ofBits .f32 0x3F800000#32) (Ideal.ofBits .f32 0x42800000#32)
          (Ideal.ofBits .f32 0x3727C5AC#32) e f := by
  rw [val_main_v63_apply, val_main_v60_apply, v59_at, v57_at, v62_at]
  rfl

end Cert.NbrNorm.Ref

end
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«141859_j10153302687998_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.PreFacts.lean ====
import proofs.«141859_j10153302687998_2_alg».proof.Pre_finite_inputs
import proofs.«141859_j10153302687998_2_alg».proof.Proof.NbrSpec
import proofs.«141859_j10153302687998_2_alg».proof.Proof.LibFinite
import proofs.«141859_j10153302687998_2_alg».proof.Proof.LibFiniteOps
import Idealize.ShloMosaic.Lib.ReduceAll
import Idealize.ShloMosaic.Lib.Affine
import Idealize.ShloMosaic.Lib.Pipeline.Value

/-
  What the precondition and the literals give: every feature is a real number; an edge whose
  destination row number is a node's number reads that node's statistics; the feature count is 64
  and the variance offset is a positive real.
-/

noncomputable section

namespace Cert.NbrNorm.Pre

open Idealize.ShloMosaic

/-! ## The literals -/

/-- The f32 pattern 0x7F800000 is +infinity. -/
theorem f32_inf : Ideal.ofBits .f32 0x7F800000#32 = ⊤ := by
  simp [Ideal.ofBits, Ideal.ieee]

/-- The f32 pattern of 64.0 is the number of features. -/
theorem c64_eq : Ideal.ofBits .f32 0x42800000#32 = (((64 : Nat) : ℝ) : EReal) := by
  simp [Ideal.ofBits, Ideal.ieee, -EReal.coe_mul]; norm_num

/-- The f32 pattern of the variance offset (about 1e-5) is a positive real. -/
theorem eps_pos : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

/-! ## The features are real numbers -/

/-- An extended real whose absolute value is below +infinity is a real number. -/
theorem isReal_of_abs_lt_top (x : EReal) (h : Ideal.cmp .olt (max x (-x)) ⊤ = 1#1) : LibFinite.IsReal x := by
  induction x using EReal.rec with
  | bot => simp [Ideal.cmp] at h
  | top => simp [Ideal.cmp] at h
  | coe r => exact ⟨r, rfl⟩

theorem x_real [Cert.Pre_finite_inputs.Facts] (X : FVec Ideal Cert.Pre_finite_inputs.S50000x64 .f32)
    (edge : IVec Cert.Pre_finite_inputs.S2x1250000 32) (g b : FVec Ideal Cert.Pre_finite_inputs.S64 .f32)
    (h : Cert.Pre_finite_inputs.fn (F := Ideal) X edge g b = fun _ => 1#1) : ∀ i, LibFinite.IsReal (X i) := by
  intro i
  haveI : Subsingleton Cert.Pre_finite_inputs.S_.Idx := ⟨fun a b => funext fun d => d.elim0⟩
  have h0 := congrFun h ValueIdx.ix0
  dsimp only [Cert.Pre_finite_inputs.fn] at h0
  have h1 := (IntOp.andi_eq_one.mp h0).1
  have h2 := (IntOp.andi_eq_one.mp h1).1
  have h3 := Host.reduce_andi_all _ _ _ _ _ h2 i
  rw [ValueIdx.cmpf_apply, broadcastInDim_apply _ _ _ i ValueIdx.ix0 (fun a => a.elim0)] at h3
  refine isReal_of_abs_lt_top (X i) ?_
  rw [← f32_inf]
  exact h3

/-! ## An edge of a node reads that node -/

theorem gr_of_row (edge : IVec ⟨2, ![2, 1250000]⟩ 32) (e : Fin 1250000) (n : Fin 50000)
    (h : Cert.NbrNorm.rowOf edge e = (n.val : Int)) : Cert.NbrNorm.grOf edge e = n := by
  unfold Cert.NbrNorm.rowOf at h
  unfold Cert.NbrNorm.grOf
  generalize edge (ValueIdx.ix2 (0 : Fin 2) e) = v at h ⊢
  have hn := n.isLt
  have hw : wrapBV v = v := by
    unfold wrapBV
    have hc : IntOp.cmpi .slt v 0#32 = 0#1 := by
      apply ValueIdx.eq_zero_of_ne_one
      rw [IntOp.cmpi_slt, h]
      simp
    rw [hc, ValueIdx.select_zero]
  rw [hw]
  unfold clampRow
  refine Fin.ext ?_
  show min v.toInt.toNat (50000 - 1) = n.val
  rw [h]
  simp only [Int.toNat_natCast]
  omega

end Cert.NbrNorm.Pre

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.KBody.lean ====
/-
  The body of the normalising region, read at an index.

  A block holds 5000 rows of 128 lanes: lanes 0..63 of row p carry one edge, lanes 64..127 the next.  Row p of the
  statistics block holds the two edges' means (columns 0, 1) and inverse deviations (columns 2, 3).  At (p, l) the
  body computes  scale l * ((x (p, l) - mean) * inv) + shift l,  taking the first edge's statistics when l < 64
  and the second edge's otherwise.
-/
import proofs.«141859_j10153302687998_2_alg».proof.Proof.Gen.KernelIdeal.Skeleton
import proofs.«141859_j10153302687998_2_alg».proof.Proof.LibKeepdims
import Idealize.ShloMosaic.Lib.ValueIdx
import Idealize.ShloMosaic.Lib.ValueLayout
import Idealize.ShloMosaic.Lib.Pipeline.Value

noncomputable section

namespace Cert.NbrNorm.KBody

open Cert.KernelIdeal Cert.KernelIdeal.Gen Idealize.ShloMosaic Idealize.ShloMosaic.ValueIdx

/-- Which half a lane is in: the bit is 1 on lanes 0..63. -/
theorem lane_word : ∀ l : Fin 128, IntOp.cmpi .slt (BitVec.ofNat 32 l.val) 64#32 = if l.val < 64 then 1#1 else 0#1 := by
  decide

/-- The half-selecting mask at (p, l). -/
theorem mask_apply (p : Fin 5000) (l : Fin 128) :
    cmpi .slt (iota .tc S5000x128 32 [1] iota_S5000x128_d1_w32) (broadcast S5000x128 64#32) (ix2 p l)
      = if l.val < 64 then 1#1 else 0#1 := by
  show IntOp.cmpi .slt (iota .tc S5000x128 32 [1] iota_S5000x128_d1_w32 (ix2 p l)) 64#32 = _
  rw [iota_single_apply]
  exact lane_word l

/-- Column j of the statistics block, as a one-column matrix, read at (p, 0). -/
theorem col_apply (x1 : FVec Ideal S5000x4 .f32) (j : Fin 4) (h : S5000x4.Slices ![0, j.val] S5000x1) (p : Fin 5000) :
    extractStridedSlice S5000x1 ![0, j.val] x1 h (ix2 p (0 : Fin 1)) = x1 (ix2 p j) :=
  extractStridedSlice_apply ![0, j.val] x1 h (ix2 p (0 : Fin 1)) (ix2 p j) (fun a => match a with
    | ⟨0, _⟩ => by show p.val = 0 + p.val; omega
    | ⟨1, _⟩ => by show j.val = j.val + 0; omega)

/-- A 128-vector laid as one row, read at (0, l). -/
theorem row_apply (x : FVec Ideal S128 .f32) (l : Fin 128) :
    shapeCast S1x128 x shapeCasts_S128_S1x128 (ix2 (0 : Fin 1) l) = x (ix1 l) :=
  shapeCast_apply x shapeCasts_S128_S1x128 _ _ (by
    rw [Shape.rowMajor_val_two, Shape.rowMajor_val_one]
    show l.val = 0 * 128 + l.val
    omega)

/-- One row repeated down the block, read at (p, l). -/
theorem rows_apply (v : FVec Ideal S1x128 .f32) (p : Fin 5000) (l : Fin 128) :
    broadcastTo S5000x128 v broadcasts_S1x128_S5000x128 (ix2 p l) = v (ix2 (0 : Fin 1) l) :=
  broadcastTo_apply v broadcasts_S1x128_S5000x128 (ix2 p l) (ix2 (0 : Fin 1) l) (fun a => match a with
    | ⟨0, _⟩ => rfl
    | ⟨1, _⟩ => rfl)

/-- THE BODY AT (p, l). -/
theorem pay_apply (x0 : Vec Ideal S5000x128 .f32) (x1 : Vec Ideal S5000x4 .f32) (x2 x3 : Vec Ideal S128 .f32)
    (p : Fin 5000) (l : Fin 128) :
    k0_pay1 (F := Ideal) x0 x1 x2 x3 (ix2 p l)
      = x2 (ix1 l) * ((x0 (ix2 p l) - (if l.val < 64 then x1 (ix2 p (0 : Fin 4)) else x1 (ix2 p (1 : Fin 4))))
          * (if l.val < 64 then x1 (ix2 p (2 : Fin 4)) else x1 (ix2 p (3 : Fin 4)))) + x3 (ix1 l) := by
  unfold k0_pay1
  simp only [addf_apply, mulf_apply, subf_apply, select_apply, shapeCast_self]
  rw [mask_apply, rows_apply, rows_apply, row_apply, row_apply,
    Cert.LibKeepdims.broadcastTo_a1_ab_apply, Cert.LibKeepdims.broadcastTo_a1_ab_apply,
    Cert.LibKeepdims.broadcastTo_a1_ab_apply, Cert.LibKeepdims.broadcastTo_a1_ab_apply]
  have c0 : extractStridedSlice S5000x1 ![0, 0] x1 slices_S5000x4_o0_0_S5000x1 (ix2 p (0 : Fin 1)) = x1 (ix2 p (0 : Fin 4)) :=
    col_apply x1 (0 : Fin 4) _ p
  have c1 : extractStridedSlice S5000x1 ![0, 1] x1 slices_S5000x4_o0_1_S5000x1 (ix2 p (0 : Fin 1)) = x1 (ix2 p (1 : Fin 4)) :=
    col_apply x1 (1 : Fin 4) _ p
  have c2 : extractStridedSlice S5000x1 ![0, 2] x1 slices_S5000x4_o0_2_S5000x1 (ix2 p (0 : Fin 1)) = x1 (ix2 p (2 : Fin 4)) :=
    col_apply x1 (2 : Fin 4) _ p
  have c3 : extractStridedSlice S5000x1 ![0, 3] x1 slices_S5000x4_o0_3_S5000x1 (ix2 p (0 : Fin 1)) = x1 (ix2 p (3 : Fin 4)) :=
    col_apply x1 (3 : Fin 4) _ p
  rw [c0, c1, c2, c3]
  by_cases hl : l.val < 64
  · rw [if_pos hl, if_pos hl, if_pos hl, select_one, select_one]
  · rw [if_neg hl, if_neg hl, if_neg hl, select_zero, select_zero]

end Cert.NbrNorm.KBody

end
-- ==== Proof.KBlocks.lean ====
/-
  From the blocks to the whole array.

  The region walks the 625000 rows in 125 blocks of 5000: at point t it reads rows 5000 t .. 5000 t + 4999 of the
  paired features and of the statistics, and the two 128-vectors whole, and writes the same rows of the result.
  Every entry of a written block is the normalised value of its own row and lane, so the result array ends as ONE
  function of the four arrays the region finds, index by index; the 125 blocks cover all rows.
-/
import proofs.«141859_j10153302687998_2_alg».proof.Proof.Gen.KernelIdeal.Frame
import proofs.«141859_j10153302687998_2_alg».proof.Proof.KBody
import Idealize.ShloMosaic.Lib.Pipeline.Value

set_option maxRecDepth 16384

noncomputable section

namespace Cert.NbrNorm.KBlocks

open Cert.KernelIdeal Cert.KernelIdeal.Gen Idealize.ShloMosaic Idealize.ShloMosaic.ValueIdx Idealize.ShloMosaic.TcCoe
open Idealize.SL.Sem
open Idealize.ShloMosaic.Pipeline (Dat)

/-- The normalised value at row r, lane l, of the arrays the region finds. -/
def normAt (a0 : S625000x128.Idx → EReal) (a1 : S625000x4.Idx → EReal) (a2 a3 : S128.Idx → EReal)
    (r : Fin 625000) (l : Fin 128) : EReal :=
  a2 (ix1 l) * ((a0 (ix2 r l) - (if l.val < 64 then a1 (ix2 r (0 : Fin 4)) else a1 (ix2 r (1 : Fin 4))))
    * (if l.val < 64 then a1 (ix2 r (2 : Fin 4)) else a1 (ix2 r (3 : Fin 4)))) + a3 (ix1 l)

/-- The same as a whole array. -/
def normAll (a0 : S625000x128.Idx → EReal) (a1 : S625000x4.Idx → EReal) (a2 a3 : S128.Idx → EReal) :
    S625000x128.Idx → EReal :=
  fun i => normAt a0 a1 a2 a3 ⟨(i 0).val, (i 0).isLt⟩ ⟨(i 1).val, (i 1).isLt⟩

theorem zeros2 : (![0, 0] : Fin 2 → Nat) = fun _ => 0 := funext fun a => by fin_cases a <;> rfl
theorem zeros1 : (![0] : Fin 1 → Nat) = fun _ => 0 := funext fun a => by fin_cases a; rfl

/-- The printed index maps over the grid: point t is at block row t of the three row-blocked arrays, block column 0,
    and at block 0 of the two vectors. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 125 := lt_of_lt_of_eq t.isLt N_0

variable (m : (ℓ : Loc nD τ sig) → Buf (Elt Ideal) ℓ)

/-- The block of the paired features at point t, read at (p, l): row 5000 t + p of the array. -/
theorem blk0_apply (c : Dev nD) (t : Fin cfg0.N) (p : Fin 5000) (l : Fin 128) :
    iblk m c 0 t (ix2 p l)
      = V m c main_v65 (ix2 (⟨t.val * 5000 + p.val, by have := point_lt t; omega⟩ : Fin 625000) l) := by
  obtain ⟨e0, e1, -⟩ := idx_facts t
  show V m c main_v65 (((cfg0.win 0).blk t).view.emb (ix2 p l)) = _
  refine congrArg (V m c main_v65) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

/-- The block of the statistics at point t, read at (p, j). -/
theorem blk1_apply (c : Dev nD) (t : Fin cfg0.N) (p : Fin 5000) (j : Fin 4) :
    iblk m c 1 t (ix2 p j)
      = V m c main_v68 (ix2 (⟨t.val * 5000 + p.val, by have := point_lt t; omega⟩ : Fin 625000) j) := by
  obtain ⟨-, -, e0, e1, -⟩ := idx_facts t
  show V m c main_v68 (((cfg0.win 1).blk t).view.emb (ix2 p j)) = _
  refine congrArg (V m c main_v68) (funext fun a => Fin.ext ?_)
  match a with
  | ⟨0, _⟩ => show win0_1.index t (0 : Fin 2) * 5000 + 1 * p.val = t.val * 5000 + p.val; omega
  | ⟨1, _⟩ => show win0_1.index t (1 : Fin 2) * 4 + 1 * j.val = j.val; omega

/-- The scale vector's block is the whole vector. -/
theorem blk2_apply (c : Dev nD) (t : Fin cfg0.N) (l : Fin 128) : iblk m c 2 t (ix1 l) = V m c main_v71 (ix1 l) := by
  obtain ⟨-, -, -, -, e0, -⟩ := idx_facts t
  show V m c main_v71 (((cfg0.win 2).blk t).view.emb (ix1 l)) = _
  refine congrArg (V m c main_v71) (funext fun a => Fin.ext ?_)
  match a with
  | ⟨0, _⟩ => show win0_2.index t (0 : Fin 1) * 128 + 1 * l.val = l.val; omega

/-- The shift vector's block is the whole vector. -/
theorem blk3_apply (c : Dev nD) (t : Fin cfg0.N) (l : Fin 128) : iblk m c 3 t (ix1 l) = V m c main_v74 (ix1 l) := by
  obtain ⟨-, -, -, -, -, e0, -⟩ := idx_facts t
  show V m c main_v74 (((cfg0.win 3).blk t).view.emb (ix1 l)) = _
  refine congrArg (V m c main_v74) (funext fun a => Fin.ext ?_)
  match a with
  | ⟨0, _⟩ => show win0_3.index t (0 : Fin 1) * 128 + 1 * l.val = l.val; omega

/-- WHAT POINT t WRITES BACK is block t of the normalised array. -/
theorem flushed_eq (c : Dev nD) (t : Fin cfg0.N) :
    (dats m 0 c).flushed 4 t = ((cfg0.win 4).blk t).view.read (Elt Ideal)
      (normAll (V m c main_v65) (V m c main_v68) (V m c main_v71) (V m c main_v74)) := by
  show (cfg0.win 4).cut (grid0.coords t) ((dats m 0 c).after 4 t) = _
  rw [after0_4]
  unfold out0_4
  rw [View.canon_unit_zero zeros2]
  simp only [View.ld_unit_zero (S := S5000x128) zeros2, View.ld_unit_zero (S := S5000x4) zeros2,
    View.ld_unit_zero (S := S128) zeros1]
  obtain ⟨-, -, -, -, -, -, e0, e1⟩ := idx_facts t
  funext j
  obtain ⟨p, l, rfl⟩ : ∃ (p : Fin 5000) (l : Fin 128), j = ix2 p l := ⟨j 0, j 1, eq_ix2 j⟩
  show k0_pay1 (F := Ideal) (iblk m c 0 t) (iblk m c 1 t) (iblk m c 2 t) (iblk m c 3 t) (ix2 p l)
    = normAt (V m c main_v65) (V m c main_v68) (V m c main_v71) (V m c main_v74)
        ⟨(((cfg0.win 4).blk t).view.emb (ix2 p l) 0).val, _⟩ ⟨(((cfg0.win 4).blk t).view.emb (ix2 p l) 1).val, _⟩
  have h0 : (⟨(((cfg0.win 4).blk t).view.emb (ix2 p l) 0).val, (((cfg0.win 4).blk t).view.emb (ix2 p l) 0).isLt⟩ : Fin 625000)
      = ⟨t.val * 5000 + p.val, by have := point_lt t; omega⟩ :=
    Fin.ext (show win0_4.index t (0 : Fin 2) * 5000 + 1 * p.val = t.val * 5000 + p.val by omega)
  have h1 : (⟨(((cfg0.win 4).blk t).view.emb (ix2 p l) 1).val, (((cfg0.win 4).blk t).view.emb (ix2 p l) 1).isLt⟩ : Fin 128) = l :=
    Fin.ext (show win0_4.index t (1 : Fin 2) * 128 + 1 * l.val = l.val by omega)
  rw [h0, h1]
  refine (KBody.pay_apply (iblk m c 0 t) (iblk m c 1 t) (iblk m c 2 t) (iblk m c 3 t) p l).trans ?_
  rw [blk0_apply, blk1_apply, blk1_apply, blk1_apply, blk1_apply, blk2_apply, blk3_apply]
  rfl

/-- An index of the array is in point t's block iff each coordinate is in the block's range on its axis. -/
theorem mem_blk (t : Fin cfg0.N) (i : S625000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v75).slice (win0_4.rect t)).set ↔ _
  rw [View.set_slice_whole, Rect.mem_set_unit]
  exact Iff.rfl

/-- Every row is in the block of the point numbered by its quotient by 5000. -/
theorem cover (i : S625000x128.Idx) :
    ∃ t : Fin cfg0.N, (cfg0.win 4).flush t = true ∧ i ∈ ((cfg0.win 4).blk t).view.set := by
  have hi0 : (i 0).val < 625000 := (i 0).isLt
  have hi1 : (i 1).val < 128 := (i 1).isLt
  let t : Fin cfg0.N := ⟨(i 0).val / 5000, by rw [show cfg0.N = 125 from N_0]; omega⟩
  obtain ⟨-, -, -, -, -, -, e0, e1⟩ := idx_facts t
  have et : t.val = (i 0).val / 5000 := rfl
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE RESULT ARRAY after the region: the normalised array of the four arrays the region finds. -/
theorem final (c : Dev nD) :
    (dats m 0 c).arrAt 4 cfg0.N = normAll (V m c main_v65) (V m c main_v68) (V m c main_v71) (V m c main_v74) :=
  (dats m 0 c).arrAt_eq_of_cover 4 _ (fun t _ => flushed_eq m c t) cover

end Cert.NbrNorm.KBlocks

end
-- ==== Proof.KValue.lean ====
/-
  The region's result carried through the last re-laying.

  After the region the [625000, 128] array is re-laid as [1250000, 64]: entry (e, f) of the result is entry
  (e / 2, 64 (e mod 2) + f) of the paired array — the row-major position 64 e + f on both sides.
-/
import proofs.«141859_j10153302687998_2_alg».proof.Proof.KBlocks
import Idealize.ShloMosaic.Lib.StableHlo.Run

set_option maxRecDepth 16384

noncomputable section

namespace Cert.NbrNorm.KValue

open Cert.KernelIdeal Cert.KernelIdeal.Gen Idealize.ShloMosaic Idealize.ShloMosaic.ValueIdx Idealize.ShloMosaic.TcCoe
open Idealize.SL.Sem Idealize.ShloMosaic.StableHlo
open Cert.NbrNorm.KBlocks

variable (m : (ℓ : Loc nD τ sig) → Buf (Elt Ideal) ℓ)

/-- What the program's result buffer holds after the last re-laying. -/
theorem tail_eq (c : Dev nD) :
    Pipeline.afterTail₀ cfgs (dats m) 0 (V0 m) [hostOps1] c main_v76
      = fun i => shapeCast S1250000x64
          (normAll (V m c main_v65) (V m c main_v68) (V m c main_v71) (V m c main_v74))
          shapeCasts_S625000x128_S1250000x64 i := by
  unfold Pipeline.afterTail₀
  show StableHlo.after hostOps1 _ (Proc.devRef .tc main_v76) = _
  after_results
  have hw : Pipeline.withArrays (cfgs 0).spec c (V0 m c) (fun w => (dats m 0 c).arrAt w (cfgs 0).N)
      (Proc.tc.devRef main_v75)
      = normAll (V m c main_v65) (V m c main_v68) (V m c main_v71) (V m c main_v74) :=
    (Pipeline.withArrays_arr spec0 launch0.win.arr_inj c _ _ 4).trans (final m c)
  rw [hw]
  rfl

/-- The result at edge e, feature f: the region's value at paired row e / 2, lane 64 (e mod 2) + f. -/
theorem result_apply (c : Dev nD) (e : Fin 1250000) (f : Fin 64) :
    Pipeline.afterTail₀ cfgs (dats m) 0 (V0 m) [hostOps1] c main_v76 (ix2 e f)
      = normAt (V m c main_v65) (V m c main_v68) (V m c main_v71) (V m c main_v74)
          ⟨e.val / 2, by have := e.isLt; omega⟩ ⟨(e.val % 2) * 64 + f.val, by have := f.isLt; omega⟩ := by
  rw [tail_eq]
  refine (shapeCast_apply (normAll (V m c main_v65) (V m c main_v68) (V m c main_v71) (V m c main_v74))
    shapeCasts_S625000x128_S1250000x64 (ix2 e f)
    (ix2 (⟨e.val / 2, by have := e.isLt; omega⟩ : Fin 625000)
      (⟨(e.val % 2) * 64 + f.val, by have := f.isLt; omega⟩ : Fin 128)) ?_).trans rfl
  rw [Shape.rowMajor_val_two, Shape.rowMajor_val_two]
  show e.val / 2 * 128 + ((e.val % 2) * 64 + f.val) = e.val * 64 + f.val
  omega

end Cert.NbrNorm.KValue

end
-- ==== Proof.KJoin.lean ====
/-
  The region's value at a paired row and lane is the one-pass formula at an edge and a feature.

  The 1250000 edges are laid out two to a row: paired row r holds edge 2 r in lanes 0 .. 63 and edge 2 r + 1 in
  lanes 64 .. 127, so lane l of row r belongs to edge 2 r + l / 64 and feature l mod 64.  The statistics array has
  the means of the row's two edges in columns 0 and 1 and their reciprocal square roots in columns 2 and 3; the
  lanes below 64 read columns 0 and 2, the others columns 1 and 3.  Hence for edge e and feature f, at row e / 2
  and lane 64 (e mod 2) + f: when e is even the lane is f < 64 and the columns read are those of edge
  2 (e / 2) + 0 = e; when e is odd the lane is 64 + f ≥ 64 and the columns are those of edge 2 (e / 2) + 1 = e.
  In both cases the lane's edge is e and its feature is f.
-/
import proofs.«141859_j10153302687998_2_alg».proof.Proof.KBlocks
import proofs.«141859_j10153302687998_2_alg».proof.Proof.NbrSpec

noncomputable section

namespace Cert.NbrNorm.KJoin

open Cert.KernelIdeal Idealize.ShloMosaic Idealize.ShloMosaic.ValueIdx Cert.NbrNorm Cert.NbrNorm.KBlocks

/-- The statement for any row r and lane l with r = e / 2 and l = 64 (e mod 2) + f. -/
theorem normAt_eq_kerOut_of_val (a0 : S625000x128.Idx → EReal) (a1 : S625000x4.Idx → EReal) (a2 a3 : S128.Idx → EReal)
    (X : S50000x64.Idx → EReal) (edge : IVec S2x1250000 32) (gam bet : S64.Idx → EReal) (Z O CC EPS : EReal)
    (h0 : ∀ (i : Fin 625000) (l : Fin 128), a0 (ix2 i l) = X (ix2 (gcOf edge ⟨2 * i.val + l.val / 64, by omega⟩) (⟨l.val % 64, by omega⟩ : Fin 64)))
    (h1 : ∀ (i : Fin 625000) (j : Fin 2), a1 (ix2 i (⟨j.val, by omega⟩ : Fin 4)) = meanK (rowOf edge) (gcOf edge) (fun n k => X (ix2 n k)) Z O CC (grOf edge ⟨2 * i.val + j.val, by omega⟩))
    (h1' : ∀ (i : Fin 625000) (j : Fin 2), a1 (ix2 i (⟨2 + j.val, by omega⟩ : Fin 4)) = Ideal.rsqrt (varK (rowOf edge) (gcOf edge) (fun n k => X (ix2 n k)) Z O CC (grOf edge ⟨2 * i.val + j.val, by omega⟩) + EPS))
    (h2 : ∀ l : Fin 128, a2 (ix1 l) = gam (ix1 (⟨l.val % 64, by omega⟩ : Fin 64)))
    (h3 : ∀ l : Fin 128, a3 (ix1 l) = bet (ix1 (⟨l.val % 64, by omega⟩ : Fin 64)))
    (r : Fin 625000) (l : Fin 128) (e : Fin 1250000) (f : Fin 64)
    (hr : r.val = e.val / 2) (hl : l.val = (e.val % 2) * 64 + f.val) :
    normAt a0 a1 a2 a3 r l
      = kerOut (rowOf edge) (grOf edge) (gcOf edge) (fun n k => X (ix2 n k)) (fun k => gam (ix1 k)) (fun k => bet (ix1 k)) Z O CC EPS e f := by
  have he := e.isLt
  have hf := f.isLt
  have e0 : (⟨2 * r.val + l.val / 64, by omega⟩ : Fin 1250000) = e :=
    Fin.ext (by show 2 * r.val + l.val / 64 = e.val; omega)
  have f0 : (⟨l.val % 64, by omega⟩ : Fin 64) = f := Fin.ext (by show l.val % 64 = f.val; omega)
  unfold normAt kerOut
  rw [h0, h2, h3, e0, f0]
  rcases Nat.mod_two_eq_zero_or_one e.val with hm | hm
  · have hl64 : l.val < 64 := by omega
    have e1 : (⟨2 * r.val + (0 : Fin 2).val, by omega⟩ : Fin 1250000) = e :=
      Fin.ext (by show 2 * r.val + 0 = e.val; omega)
    have m := h1 r (0 : Fin 2)
    have v := h1' r (0 : Fin 2)
    rw [e1] at m v
    rw [if_pos hl64, if_pos hl64, show a1 (ix2 r (0 : Fin 4)) = _ from m, show a1 (ix2 r (2 : Fin 4)) = _ from v]
  · have hl64 : ¬ l.val < 64 := by omega
    have e1 : (⟨2 * r.val + (1 : Fin 2).val, by omega⟩ : Fin 1250000) = e :=
      Fin.ext (by show 2 * r.val + 1 = e.val; omega)
    have m := h1 r (1 : Fin 2)
    have v := h1' r (1 : Fin 2)
    rw [e1] at m v
    rw [if_neg hl64, if_neg hl64, show a1 (ix2 r (1 : Fin 4)) = _ from m, show a1 (ix2 r (3 : Fin 4)) = _ from v]

/-- At paired row e / 2 and lane 64 (e mod 2) + f the region's value is the one-pass formula at edge e, feature f. -/
theorem normAt_eq_kerOut (a0 : S625000x128.Idx → EReal) (a1 : S625000x4.Idx → EReal) (a2 a3 : S128.Idx → EReal)
    (X : S50000x64.Idx → EReal) (edge : IVec S2x1250000 32) (gam bet : S64.Idx → EReal) (Z O CC EPS : EReal)
    (h0 : ∀ (i : Fin 625000) (l : Fin 128), a0 (ix2 i l) = X (ix2 (gcOf edge ⟨2 * i.val + l.val / 64, by omega⟩) (⟨l.val % 64, by omega⟩ : Fin 64)))
    (h1 : ∀ (i : Fin 625000) (j : Fin 2), a1 (ix2 i (⟨j.val, by omega⟩ : Fin 4)) = meanK (rowOf edge) (gcOf edge) (fun n k => X (ix2 n k)) Z O CC (grOf edge ⟨2 * i.val + j.val, by omega⟩))
    (h1' : ∀ (i : Fin 625000) (j : Fin 2), a1 (ix2 i (⟨2 + j.val, by omega⟩ : Fin 4)) = Ideal.rsqrt (varK (rowOf edge) (gcOf edge) (fun n k => X (ix2 n k)) Z O CC (grOf edge ⟨2 * i.val + j.val, by omega⟩) + EPS))
    (h2 : ∀ l : Fin 128, a2 (ix1 l) = gam (ix1 (⟨l.val % 64, by omega⟩ : Fin 64)))
    (h3 : ∀ l : Fin 128, a3 (ix1 l) = bet (ix1 (⟨l.val % 64, by omega⟩ : Fin 64)))
    (e : Fin 1250000) (f : Fin 64) :
    normAt a0 a1 a2 a3 ⟨e.val / 2, by omega⟩ ⟨(e.val % 2) * 64 + f.val, by omega⟩
      = kerOut (rowOf edge) (grOf edge) (gcOf edge) (fun n k => X (ix2 n k)) (fun k => gam (ix1 k)) (fun k => bet (ix1 k)) Z O CC EPS e f :=
  normAt_eq_kerOut_of_val a0 a1 a2 a3 X edge gam bet Z O CC EPS h0 h1 h1' h2 h3 _ _ e f rfl rfl

end Cert.NbrNorm.KJoin

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.KHostBase.lean ====
/-
  The host operations that run before the kernel region, read one at a time.

  The program's main function runs a straight line of 95 host operations (slices, reshapes, reductions,
  scatter-adds, gathers, elementwise arithmetic) before it enters the kernel region. The line is in
  single-assignment form: operation number k writes one fresh buffer, and nothing it reads or writes is written
  again later. Hence the contents found when the region is entered satisfy every operation's own equation:
  the result buffer holds the operation's function of the contents of its operand buffers. This module states
  these 95 equations, one per result buffer, with nothing simplified on the right-hand sides.
-/
import proofs.«141859_j10153302687998_2_alg».proof.Proof.Gen.KernelIdeal.Frame
import proofs.«141859_j10153302687998_2_alg».proof.Proof.LibHostRead

set_option maxRecDepth 16384

noncomputable section

namespace Cert.NbrNorm.KHost

open Cert.KernelIdeal Cert.KernelIdeal.Gen Idealize.ShloMosaic Idealize.ShloMosaic.StableHlo

variable {F : FTy → Type} [FloatOps F] (m : (ℓ : Loc nD τ sig) → Buf (Elt F) ℓ) (c : Dev nD)

/-- The buffers the 95 host operations write, in order. -/
def written : List (Ref sig .tc) :=
  [main_v0, main_v1, main_v2, main_v3, main_cst, main_v4, main_v5, main_cst_0, main_v6, main_cst_1, main_v7, main_cst_2, main_v8, main_v9, main_v10, main_cst_3, main_v11, main_v12, main_c, main_v13, main_v14, main_c_4, main_v15, main_v16, main_v17, main_v18, main_v19, main_cst_5, main_v20, main_v21, main_v22, main_c_6, main_v23, main_v24, main_c_7, main_v25, main_v26, main_v27, main_v28, main_v29, main_cst_8, main_v30, main_v31, main_v32, main_cst_9, main_v33, main_v34, main_v35, main_v36, main_v37, main_v38, main_cst_10, main_v39, main_v40, main_c_11, main_v41, main_v42, main_c_12, main_v43, main_v44, main_v45, main_v46, main_v47, main_c_13, main_v48, main_v49, main_c_14, main_v50, main_v51, main_v52, main_v53, main_v54, main_cst_15, main_v55, main_v56, main_v57, main_c_16, main_v58, main_v59, main_c_17, main_v60, main_v61, main_v62, main_v63, main_v64, main_v65, main_v66, main_v67, main_v68, main_v69, main_v70, main_v71, main_v72, main_v73, main_v74]

theorem aligned_nil : LibHostRead.Aligned ([] : List (HloOp τ sig (Elt F))) [] := trivial

theorem aligned_cons {op : HloOp τ sig (Elt F)} {ops : List (HloOp τ sig (Elt F))} {y : Ref sig .tc} {W : List (Ref sig .tc)}
    (h₁ : op.writes = {Proc.devRef (τ := τ) .tc y}) (h₂ : LibHostRead.Aligned ops W) : LibHostRead.Aligned (op :: ops) (y :: W) :=
  show _ ∧ _ from ⟨h₁, h₂⟩

/-- Operation number k of the line writes exactly the k-th buffer of the list. -/
theorem aligned : LibHostRead.Aligned (hostOps0 : List (HloOp τ sig (Elt F))) written :=
  aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_cons rfl (aligned_nil)))))))))))))))))))))))))))))))))))))))))))))))))))))))))))))))))))))))))))))))))))))))))))))))

/-- The contents at the region's entry are the contents after the line of host operations. -/
theorem V_eq_after (b : Ref sig .tc) :
    V m c b = StableHlo.after hostOps0 (fun b' => m (c, b')) (Proc.devRef .tc b) := by
  dsimp only [V, V0]
  simp only [List.flatten_cons, List.flatten_nil, List.append_nil]

/-! ## One reading lemma per kind of operation, at the region's entry -/

theorem V_nullary (y : Ref sig .tc) (v : y.ty.Contents (Elt F)) (k : Nat) {hy}
    (hk : (hostOps0 : List (HloOp τ sig (Elt F)))[k]? = some (nullary y v hy)) (hy' : y ∉ written.drop (k + 1)) :
    V m c y = v := by
  rw [V_eq_after]
  exact LibHostRead.after_nullary_fix aligned k hk hy' _

theorem V_unary (x y : Ref sig .tc) (f : x.ty.Contents (Elt F) → y.ty.Contents (Elt F)) (k : Nat) {hx hy}
    (hk : (hostOps0 : List (HloOp τ sig (Elt F)))[k]? = some (unary x y f hx hy)) (hxy : x ≠ y)
    (hx' : x ∉ written.drop (k + 1)) (hy' : y ∉ written.drop (k + 1)) :
    V m c y = f (V m c x) := by
  rw [V_eq_after m c y, V_eq_after m c x]
  exact LibHostRead.after_unary_fix aligned k hk hxy hx' hy' _

theorem V_binary (a b y : Ref sig .tc) (f : a.ty.Contents (Elt F) → b.ty.Contents (Elt F) → y.ty.Contents (Elt F)) (k : Nat)
    {ha hb hy} (hk : (hostOps0 : List (HloOp τ sig (Elt F)))[k]? = some (binary a b y f ha hb hy)) (hay : a ≠ y) (hby : b ≠ y)
    (ha' : a ∉ written.drop (k + 1)) (hb' : b ∉ written.drop (k + 1)) (hy' : y ∉ written.drop (k + 1)) :
    V m c y = f (V m c a) (V m c b) := by
  rw [V_eq_after m c y, V_eq_after m c a, V_eq_after m c b]
  exact LibHostRead.after_binary_fix aligned k hk hay hby ha' hb' hy' _

theorem V_ternary (p a b y : Ref sig .tc)
    (f : p.ty.Contents (Elt F) → a.ty.Contents (Elt F) → b.ty.Contents (Elt F) → y.ty.Contents (Elt F)) (k : Nat)
    {hp ha hb hy} (hk : (hostOps0 : List (HloOp τ sig (Elt F)))[k]? = some (ternary p a b y f hp ha hb hy))
    (hpy : p ≠ y) (hay : a ≠ y) (hby : b ≠ y)
    (hp' : p ∉ written.drop (k + 1)) (ha' : a ∉ written.drop (k + 1)) (hb' : b ∉ written.drop (k + 1))
    (hy' : y ∉ written.drop (k + 1)) :
    V m c y = f (V m c p) (V m c a) (V m c b) := by
  rw [V_eq_after m c y, V_eq_after m c p, V_eq_after m c a, V_eq_after m c b]
  exact LibHostRead.after_ternary_fix aligned k hk hpy hay hby hp' ha' hb' hy' _

theorem V_reshape (x y : Ref sig .tc) (he : x.ty.elt = y.ty.elt) (hn : x.ty.shape.ShapeCasts y.ty.shape) (k : Nat) {hx hy}
    (hk : (hostOps0 : List (HloOp τ sig (Elt F)))[k]? = some (reshape x y he hn hx hy)) (hxy : x ≠ y)
    (hx' : x ∉ written.drop (k + 1)) (hy' : y ∉ written.drop (k + 1)) :
    V m c y = fun i => he ▸ shapeCast y.ty.shape (V m c x) hn i := by
  rw [V_eq_after m c y, V_eq_after m c x]
  exact LibHostRead.after_reshape_fix aligned k hk hxy hx' hy' _

end Cert.NbrNorm.KHost

end
-- ==== Proof.KHostEqs.lean ====
/-
  The equations of the host operations that run before the kernel region, in program order.

  For each of the 95 operations of the line, the contents of its result buffer at the region's entry equal the
  operation's function applied to the contents of its operand buffers at the region's entry. The right-hand sides
  are the operations' functions exactly as the program states them (a lambda is written applied to its arguments),
  with each operand ascribed its buffer type so that the shapes are visible.
-/
import proofs.«141859_j10153302687998_2_alg».proof.Proof.KHostBase

set_option maxRecDepth 16384

noncomputable section

namespace Cert.NbrNorm.KHost

open Cert.KernelIdeal Cert.KernelIdeal.Gen Idealize.ShloMosaic Idealize.ShloMosaic.StableHlo

variable {F : FTy → Type} [FloatOps F] (m : (ℓ : Loc nD τ sig) → Buf (Elt F) ℓ) (c : Dev nD)

/-! ## The 95 equations -/

theorem eq_main_v0 :
    V m c main_v0 = extractStridedSlice (s := S2x1250000) S1x1250000 ![0, 0] (V m c main_arg1 : (⟨S2x1250000, .i32⟩ : BufTy).Contents (Elt F)) slices_S2x1250000_S1x1250000_0_0 :=
  V_unary m c main_arg1 main_v0 (fun x => extractStridedSlice (s := S2x1250000) S1x1250000 ![0, 0] x slices_S2x1250000_S1x1250000_0_0) 0 rfl (by decide) (by decide) (by decide)

theorem eq_main_v1 :
    V m c main_v1 = shapeCast S1250000 (V m c main_v0 : (⟨S1x1250000, .i32⟩ : BufTy).Contents (Elt F)) shapeCasts_S1x1250000_S1250000 :=
  V_reshape m c main_v0 main_v1 rfl shapeCasts_S1x1250000_S1250000 1 rfl (by decide) (by decide) (by decide)

theorem eq_main_v2 :
    V m c main_v2 = extractStridedSlice (s := S2x1250000) S1x1250000 ![1, 0] (V m c main_arg1 : (⟨S2x1250000, .i32⟩ : BufTy).Contents (Elt F)) slices_S2x1250000_S1x1250000_1_0 :=
  V_unary m c main_arg1 main_v2 (fun x => extractStridedSlice (s := S2x1250000) S1x1250000 ![1, 0] x slices_S2x1250000_S1x1250000_1_0) 2 rfl (by decide) (by decide) (by decide)

theorem eq_main_v3 :
    V m c main_v3 = shapeCast S1250000 (V m c main_v2 : (⟨S1x1250000, .i32⟩ : BufTy).Contents (Elt F)) shapeCasts_S1x1250000_S1250000 :=
  V_reshape m c main_v2 main_v3 rfl shapeCasts_S1x1250000_S1250000 3 rfl (by decide) (by decide) (by decide)

theorem eq_main_cst :
    V m c main_cst = (constant S_ .f32 0x00000000#32 : (⟨S_, .f32⟩ : BufTy).Contents (Elt F)) :=
  V_nullary m c main_cst (constant S_ .f32 0x00000000#32) 4 rfl (by decide)

theorem eq_main_v4 :
    V m c main_v4 = Host.reduceAdd (V m c main_arg0 : (⟨S50000x64, .f32⟩ : BufTy).Contents (Elt F)) (V m c main_cst : (⟨S_, .f32⟩ : BufTy).Contents (Elt F)) reducesTo_S50000x64_S50000_d1 h_S_ :=
  V_binary m c main_arg0 main_cst main_v4 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) 5 rfl (by decide) (by decide) (by decide) (by decide) (by decide)

theorem eq_main_v5 :
    V m c main_v5 = (mulf : (⟨S50000x64, .f32⟩ : BufTy).Contents (Elt F) → (⟨S50000x64, .f32⟩ : BufTy).Contents (Elt F) → (⟨S50000x64, .f32⟩ : BufTy).Contents (Elt F)) (V m c main_arg0 : (⟨S50000x64, .f32⟩ : BufTy).Contents (Elt F)) (V m c main_arg0 : (⟨S50000x64, .f32⟩ : BufTy).Contents (Elt F)) :=
  V_binary m c main_arg0 main_arg0 main_v5 (mulf : (⟨S50000x64, .f32⟩ : BufTy).Contents (Elt F) → (⟨S50000x64, .f32⟩ : BufTy).Contents (Elt F) → (⟨S50000x64, .f32⟩ : BufTy).Contents (Elt F)) 6 rfl (by decide) (by decide) (by decide) (by decide) (by decide)

theorem eq_main_cst_0 :
    V m c main_cst_0 = (constant S_ .f32 0x00000000#32 : (⟨S_, .f32⟩ : BufTy).Contents (Elt F)) :=
  V_nullary m c main_cst_0 (constant S_ .f32 0x00000000#32) 7 rfl (by decide)

theorem eq_main_v6 :
    V m c main_v6 = Host.reduceAdd (V m c main_v5 : (⟨S50000x64, .f32⟩ : BufTy).Contents (Elt F)) (V m c main_cst_0 : (⟨S_, .f32⟩ : BufTy).Contents (Elt F)) reducesTo_S50000x64_S50000_d1 h_S_ :=
  V_binary m c main_v5 main_cst_0 main_v6 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) 8 rfl (by decide) (by decide) (by decide) (by decide) (by decide)

theorem eq_main_cst_1 :
    V m c main_cst_1 = (constant S_ .f32 0x3F800000#32 : (⟨S_, .f32⟩ : BufTy).Contents (Elt F)) :=
  V_nullary m c main_cst_1 (constant S_ .f32 0x3F800000#32) 9 rfl (by decide)

theorem eq_main_v7 :
    V m c main_v7 = (broadcastInDim S1250000 ![] bcast_S_S1250000 : (⟨S_, .f32⟩ : BufTy).Contents (Elt F) → (⟨S1250000, .f32⟩ : BufTy).Contents (Elt F)) (V m c main_cst_1 : (⟨S_, .f32⟩ : BufTy).Contents (Elt F)) :=
  V_unary m c main_cst_1 main_v7 (broadcastInDim S1250000 ![] bcast_S_S1250000 : (⟨S_, .f32⟩ : BufTy).Contents (Elt F) → (⟨S1250000, .f32⟩ : BufTy).Contents (Elt F)) 10 rfl (by decide) (by decide) (by decide)

theorem eq_main_cst_2 :
    V m c main_cst_2 = (constant S_ .f32 0x00000000#32 : (⟨S_, .f32⟩ : BufTy).Contents (Elt F)) :=
  V_nullary m c main_cst_2 (constant S_ .f32 0x00000000#32) 11 rfl (by decide)

theorem eq_main_v8 :
    V m c main_v8 = (broadcastInDim S50000 ![] bcast_S_S50000 : (⟨S_, .f32⟩ : BufTy).Contents (Elt F) → (⟨S50000, .f32⟩ : BufTy).Contents (Elt F)) (V m c main_cst_2 : (⟨S_, .f32⟩ : BufTy).Contents (Elt F)) :=
  V_unary m c main_cst_2 main_v8 (broadcastInDim S50000 ![] bcast_S_S50000 : (⟨S_, .f32⟩ : BufTy).Contents (Elt F) → (⟨S50000, .f32⟩ : BufTy).Contents (Elt F)) 12 rfl (by decide) (by decide) (by decide)

theorem eq_main_v9 :
    V m c main_v9 = (broadcastInDim S1250000x1 ![0] bcast_S1250000_S1250000x1_0 : (⟨S1250000, .i32⟩ : BufTy).Contents (Elt F) → (⟨S1250000x1, .i32⟩ : BufTy).Contents (Elt F)) (V m c main_v1 : (⟨S1250000, .i32⟩ : BufTy).Contents (Elt F)) :=
  V_unary m c main_v1 main_v9 (broadcastInDim S1250000x1 ![0] bcast_S1250000_S1250000x1_0 : (⟨S1250000, .i32⟩ : BufTy).Contents (Elt F) → (⟨S1250000x1, .i32⟩ : BufTy).Contents (Elt F)) 13 rfl (by decide) (by decide) (by decide)

theorem eq_main_v10 :
    V m c main_v10 = Host.scatterAdd scatter_S50000_S1250000x1_S1250000_n_0_0_1 (V m c main_v8 : (⟨S50000, .f32⟩ : BufTy).Contents (Elt F)) (V m c main_v9 : (⟨S1250000x1, .i32⟩ : BufTy).Contents (Elt F)) (V m c main_v7 : (⟨S1250000, .f32⟩ : BufTy).Contents (Elt F)) :=
  V_ternary m c main_v8 main_v9 main_v7 main_v10 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)) 14 rfl (by decide) (by decide) (by decide) (by decide) (by decide) (by decide) (by decide)

theorem eq_main_cst_3 :
    V m c main_cst_3 = (constant S_ .f32 0x3F800000#32 : (⟨S_, .f32⟩ : BufTy).Contents (Elt F)) :=
  V_nullary m c main_cst_3 (constant S_ .f32 0x3F800000#32) 15 rfl (by decide)

theorem eq_main_v11 :
    V m c main_v11 = (broadcastInDim S50000 ![] bcast_S_S50000 : (⟨S_, .f32⟩ : BufTy).Contents (Elt F) → (⟨S50000, .f32⟩ : BufTy).Contents (Elt F)) (V m c main_cst_3 : (⟨S_, .f32⟩ : BufTy).Contents (Elt F)) :=
  V_unary m c main_cst_3 main_v11 (broadcastInDim S50000 ![] bcast_S_S50000 : (⟨S_, .f32⟩ : BufTy).Contents (Elt F) → (⟨S50000, .f32⟩ : BufTy).Contents (Elt F)) 16 rfl (by decide) (by decide) (by decide)

theorem eq_main_v12 :
    V m c main_v12 = (maximumf : (⟨S50000, .f32⟩ : BufTy).Contents (Elt F) → (⟨S50000, .f32⟩ : BufTy).Contents (Elt F) → (⟨S50000, .f32⟩ : BufTy).Contents (Elt F)) (V m c main_v10 : (⟨S50000, .f32⟩ : BufTy).Contents (Elt F)) (V m c main_v11 : (⟨S50000, .f32⟩ : BufTy).Contents (Elt F)) :=
  V_binary m c main_v10 main_v11 main_v12 (maximumf : (⟨S50000, .f32⟩ : BufTy).Contents (Elt F) → (⟨S50000, .f32⟩ : BufTy).Contents (Elt F) → (⟨S50000, .f32⟩ : BufTy).Contents (Elt F)) 17 rfl (by decide) (by decide) (by decide) (by decide) (by decide)

theorem eq_main_c :
    V m c main_c = (constantI S_ 32 0#32 : (⟨S_, .i32⟩ : BufTy).Contents (Elt F)) :=
  V_nullary m c main_c (constantI S_ 32 0#32) 18 rfl (by decide)

theorem eq_main_v13 :
    V m c main_v13 = (broadcastInDim S1250000 ![] bcast_S_S1250000 : (⟨S_, .i32⟩ : BufTy).Contents (Elt F) → (⟨S1250000, .i32⟩ : BufTy).Contents (Elt F)) (V m c main_c : (⟨S_, .i32⟩ : BufTy).Contents (Elt F)) :=
  V_unary m c main_c main_v13 (broadcastInDim S1250000 ![] bcast_S_S1250000 : (⟨S_, .i32⟩ : BufTy).Contents (Elt F) → (⟨S1250000, .i32⟩ : BufTy).Contents (Elt F)) 19 rfl (by decide) (by decide) (by decide)

theorem eq_main_v14 :
    V m c main_v14 = (cmpi .slt : (⟨S1250000, .i32⟩ : BufTy).Contents (Elt F) → (⟨S1250000, .i32⟩ : BufTy).Contents (Elt F) → (⟨S1250000, .i1⟩ : BufTy).Contents (Elt F)) (V m c main_v3 : (⟨S1250000, .i32⟩ : BufTy).Contents (Elt F)) (V m c main_v13 : (⟨S1250000, .i32⟩ : BufTy).Contents (Elt F)) :=
  V_binary m c main_v3 main_v13 main_v14 (cmpi .slt : (⟨S1250000, .i32⟩ : BufTy).Contents (Elt F) → (⟨S1250000, .i32⟩ : BufTy).Contents (Elt F) → (⟨S1250000, .i1⟩ : BufTy).Contents (Elt F)) 20 rfl (by decide) (by decide) (by decide) (by decide) (by decide)

theorem eq_main_c_4 :
    V m c main_c_4 = (constantI S_ 32 50000#32 : (⟨S_, .i32⟩ : BufTy).Contents (Elt F)) :=
  V_nullary m c main_c_4 (constantI S_ 32 50000#32) 21 rfl (by decide)

theorem eq_main_v15 :
    V m c main_v15 = (broadcastInDim S1250000 ![] bcast_S_S1250000 : (⟨S_, .i32⟩ : BufTy).Contents (Elt F) → (⟨S1250000, .i32⟩ : BufTy).Contents (Elt F)) (V m c main_c_4 : (⟨S_, .i32⟩ : BufTy).Contents (Elt F)) :=
  V_unary m c main_c_4 main_v15 (broadcastInDim S1250000 ![] bcast_S_S1250000 : (⟨S_, .i32⟩ : BufTy).Contents (Elt F) → (⟨S1250000, .i32⟩ : BufTy).Contents (Elt F)) 22 rfl (by decide) (by decide) (by decide)

theorem eq_main_v16 :
    V m c main_v16 = (addi : (⟨S1250000, .i32⟩ : BufTy).Contents (Elt F) → (⟨S1250000, .i32⟩ : BufTy).Contents (Elt F) → (⟨S1250000, .i32⟩ : BufTy).Contents (Elt F)) (V m c main_v3 : (⟨S1250000, .i32⟩ : BufTy).Contents (Elt F)) (V m c main_v15 : (⟨S1250000, .i32⟩ : BufTy).Contents (Elt F)) :=
  V_binary m c main_v3 main_v15 main_v16 (addi : (⟨S1250000, .i32⟩ : BufTy).Contents (Elt F) → (⟨S1250000, .i32⟩ : BufTy).Contents (Elt F) → (⟨S1250000, .i32⟩ : BufTy).Contents (Elt F)) 23 rfl (by decide) (by decide) (by decide) (by decide) (by decide)

theorem eq_main_v17 :
    V m c main_v17 = (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) (V m c main_v14 : (⟨S1250000, .i1⟩ : BufTy).Contents (Elt F)) (V m c main_v16 : (⟨S1250000, .i32⟩ : BufTy).Contents (Elt F)) (V m c main_v3 : (⟨S1250000, .i32⟩ : BufTy).Contents (Elt F)) :=
  V_ternary m c main_v14 main_v16 main_v3 main_v17 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) 24 rfl (by decide) (by decide) (by decide) (by decide) (by decide) (by decide) (by decide)

theorem eq_main_v18 :
    V m c main_v18 = (broadcastInDim S1250000x1 ![0] bcast_S1250000_S1250000x1_0 : (⟨S1250000, .i32⟩ : BufTy).Contents (Elt F) → (⟨S1250000x1, .i32⟩ : BufTy).Contents (Elt F)) (V m c main_v17 : (⟨S1250000, .i32⟩ : BufTy).Contents (Elt F)) :=
  V_unary m c main_v17 main_v18 (broadcastInDim S1250000x1 ![0] bcast_S1250000_S1250000x1_0 : (⟨S1250000, .i32⟩ : BufTy).Contents (Elt F) → (⟨S1250000x1, .i32⟩ : BufTy).Contents (Elt F)) 25 rfl (by decide) (by decide) (by decide)

theorem eq_main_v19 :
    V m c main_v19 = Host.gather gather_S50000_S1250000x1_S1250000_n_0_n_n_0_1_1 (V m c main_v4 : (⟨S50000, .f32⟩ : BufTy).Contents (Elt F)) (V m c main_v18 : (⟨S1250000x1, .i32⟩ : BufTy).Contents (Elt F)) :=
  V_binary m c main_v4 main_v18 main_v19 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)) 26 rfl (by decide) (by decide) (by decide) (by decide) (by decide)

theorem eq_main_cst_5 :
    V m c main_cst_5 = (constant S_ .f32 0x00000000#32 : (⟨S_, .f32⟩ : BufTy).Contents (Elt F)) :=
  V_nullary m c main_cst_5 (constant S_ .f32 0x00000000#32) 27 rfl (by decide)

theorem eq_main_v20 :
    V m c main_v20 = (broadcastInDim S50000 ![] bcast_S_S50000 : (⟨S_, .f32⟩ : BufTy).Contents (Elt F) → (⟨S50000, .f32⟩ : BufTy).Contents (Elt F)) (V m c main_cst_5 : (⟨S_, .f32⟩ : BufTy).Contents (Elt F)) :=
  V_unary m c main_cst_5 main_v20 (broadcastInDim S50000 ![] bcast_S_S50000 : (⟨S_, .f32⟩ : BufTy).Contents (Elt F) → (⟨S50000, .f32⟩ : BufTy).Contents (Elt F)) 28 rfl (by decide) (by decide) (by decide)

theorem eq_main_v21 :
    V m c main_v21 = (broadcastInDim S1250000x1 ![0] bcast_S1250000_S1250000x1_0 : (⟨S1250000, .i32⟩ : BufTy).Contents (Elt F) → (⟨S1250000x1, .i32⟩ : BufTy).Contents (Elt F)) (V m c main_v1 : (⟨S1250000, .i32⟩ : BufTy).Contents (Elt F)) :=
  V_unary m c main_v1 main_v21 (broadcastInDim S1250000x1 ![0] bcast_S1250000_S1250000x1_0 : (⟨S1250000, .i32⟩ : BufTy).Contents (Elt F) → (⟨S1250000x1, .i32⟩ : BufTy).Contents (Elt F)) 29 rfl (by decide) (by decide) (by decide)

theorem eq_main_v22 :
    V m c main_v22 = Host.scatterAdd scatter_S50000_S1250000x1_S1250000_n_0_0_1 (V m c main_v20 : (⟨S50000, .f32⟩ : BufTy).Contents (Elt F)) (V m c main_v21 : (⟨S1250000x1, .i32⟩ : BufTy).Contents (Elt F)) (V m c main_v19 : (⟨S1250000, .f32⟩ : BufTy).Contents (Elt F)) :=
  V_ternary m c main_v20 main_v21 main_v19 main_v22 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)) 30 rfl (by decide) (by decide) (by decide) (by decide) (by decide) (by decide) (by decide)

theorem eq_main_c_6 :
    V m c main_c_6 = (constantI S_ 32 0#32 : (⟨S_, .i32⟩ : BufTy).Contents (Elt F)) :=
  V_nullary m c main_c_6 (constantI S_ 32 0#32) 31 rfl (by decide)

theorem eq_main_v23 :
    V m c main_v23 = (broadcastInDim S1250000 ![] bcast_S_S1250000 : (⟨S_, .i32⟩ : BufTy).Contents (Elt F) → (⟨S1250000, .i32⟩ : BufTy).Contents (Elt F)) (V m c main_c_6 : (⟨S_, .i32⟩ : BufTy).Contents (Elt F)) :=
  V_unary m c main_c_6 main_v23 (broadcastInDim S1250000 ![] bcast_S_S1250000 : (⟨S_, .i32⟩ : BufTy).Contents (Elt F) → (⟨S1250000, .i32⟩ : BufTy).Contents (Elt F)) 32 rfl (by decide) (by decide) (by decide)

theorem eq_main_v24 :
    V m c main_v24 = (cmpi .slt : (⟨S1250000, .i32⟩ : BufTy).Contents (Elt F) → (⟨S1250000, .i32⟩ : BufTy).Contents (Elt F) → (⟨S1250000, .i1⟩ : BufTy).Contents (Elt F)) (V m c main_v3 : (⟨S1250000, .i32⟩ : BufTy).Contents (Elt F)) (V m c main_v23 : (⟨S1250000, .i32⟩ : BufTy).Contents (Elt F)) :=
  V_binary m c main_v3 main_v23 main_v24 (cmpi .slt : (⟨S1250000, .i32⟩ : BufTy).Contents (Elt F) → (⟨S1250000, .i32⟩ : BufTy).Contents (Elt F) → (⟨S1250000, .i1⟩ : BufTy).Contents (Elt F)) 33 rfl (by decide) (by decide) (by decide) (by decide) (by decide)

theorem eq_main_c_7 :
    V m c main_c_7 = (constantI S_ 32 50000#32 : (⟨S_, .i32⟩ : BufTy).Contents (Elt F)) :=
  V_nullary m c main_c_7 (constantI S_ 32 50000#32) 34 rfl (by decide)

theorem eq_main_v25 :
    V m c main_v25 = (broadcastInDim S1250000 ![] bcast_S_S1250000 : (⟨S_, .i32⟩ : BufTy).Contents (Elt F) → (⟨S1250000, .i32⟩ : BufTy).Contents (Elt F)) (V m c main_c_7 : (⟨S_, .i32⟩ : BufTy).Contents (Elt F)) :=
  V_unary m c main_c_7 main_v25 (broadcastInDim S1250000 ![] bcast_S_S1250000 : (⟨S_, .i32⟩ : BufTy).Contents (Elt F) → (⟨S1250000, .i32⟩ : BufTy).Contents (Elt F)) 35 rfl (by decide) (by decide) (by decide)

theorem eq_main_v26 :
    V m c main_v26 = (addi : (⟨S1250000, .i32⟩ : BufTy).Contents (Elt F) → (⟨S1250000, .i32⟩ : BufTy).Contents (Elt F) → (⟨S1250000, .i32⟩ : BufTy).Contents (Elt F)) (V m c main_v3 : (⟨S1250000, .i32⟩ : BufTy).Contents (Elt F)) (V m c main_v25 : (⟨S1250000, .i32⟩ : BufTy).Contents (Elt F)) :=
  V_binary m c main_v3 main_v25 main_v26 (addi : (⟨S1250000, .i32⟩ : BufTy).Contents (Elt F) → (⟨S1250000, .i32⟩ : BufTy).Contents (Elt F) → (⟨S1250000, .i32⟩ : BufTy).Contents (Elt F)) 36 rfl (by decide) (by decide) (by decide) (by decide) (by decide)

theorem eq_main_v27 :
    V m c main_v27 = (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) (V m c main_v24 : (⟨S1250000, .i1⟩ : BufTy).Contents (Elt F)) (V m c main_v26 : (⟨S1250000, .i32⟩ : BufTy).Contents (Elt F)) (V m c main_v3 : (⟨S1250000, .i32⟩ : BufTy).Contents (Elt F)) :=
  V_ternary m c main_v24 main_v26 main_v3 main_v27 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) 37 rfl (by decide) (by decide) (by decide) (by decide) (by decide) (by decide) (by decide)

theorem eq_main_v28 :
    V m c main_v28 = (broadcastInDim S1250000x1 ![0] bcast_S1250000_S1250000x1_0 : (⟨S1250000, .i32⟩ : BufTy).Contents (Elt F) → (⟨S1250000x1, .i32⟩ : BufTy).Contents (Elt F)) (V m c main_v27 : (⟨S1250000, .i32⟩ : BufTy).Contents (Elt F)) :=
  V_unary m c main_v27 main_v28 (broadcastInDim S1250000x1 ![0] bcast_S1250000_S1250000x1_0 : (⟨S1250000, .i32⟩ : BufTy).Contents (Elt F) → (⟨S1250000x1, .i32⟩ : BufTy).Contents (Elt F)) 38 rfl (by decide) (by decide) (by decide)

theorem eq_main_v29 :
    V m c main_v29 = Host.gather gather_S50000_S1250000x1_S1250000_n_0_n_n_0_1_1 (V m c main_v6 : (⟨S50000, .f32⟩ : BufTy).Contents (Elt F)) (V m c main_v28 : (⟨S1250000x1, .i32⟩ : BufTy).Contents (Elt F)) :=
  V_binary m c main_v6 main_v28 main_v29 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)) 39 rfl (by decide) (by decide) (by decide) (by decide) (by decide)

theorem eq_main_cst_8 :
    V m c main_cst_8 = (constant S_ .f32 0x00000000#32 : (⟨S_, .f32⟩ : BufTy).Contents (Elt F)) :=
  V_nullary m c main_cst_8 (constant S_ .f32 0x00000000#32) 40 rfl (by decide)

theorem eq_main_v30 :
    V m c main_v30 = (broadcastInDim S50000 ![] bcast_S_S50000 : (⟨S_, .f32⟩ : BufTy).Contents (Elt F) → (⟨S50000, .f32⟩ : BufTy).Contents (Elt F)) (V m c main_cst_8 : (⟨S_, .f32⟩ : BufTy).Contents (Elt F)) :=
  V_unary m c main_cst_8 main_v30 (broadcastInDim S50000 ![] bcast_S_S50000 : (⟨S_, .f32⟩ : BufTy).Contents (Elt F) → (⟨S50000, .f32⟩ : BufTy).Contents (Elt F)) 41 rfl (by decide) (by decide) (by decide)

theorem eq_main_v31 :
    V m c main_v31 = (broadcastInDim S1250000x1 ![0] bcast_S1250000_S1250000x1_0 : (⟨S1250000, .i32⟩ : BufTy).Contents (Elt F) → (⟨S1250000x1, .i32⟩ : BufTy).Contents (Elt F)) (V m c main_v1 : (⟨S1250000, .i32⟩ : BufTy).Contents (Elt F)) :=
  V_unary m c main_v1 main_v31 (broadcastInDim S1250000x1 ![0] bcast_S1250000_S1250000x1_0 : (⟨S1250000, .i32⟩ : BufTy).Contents (Elt F) → (⟨S1250000x1, .i32⟩ : BufTy).Contents (Elt F)) 42 rfl (by decide) (by decide) (by decide)

theorem eq_main_v32 :
    V m c main_v32 = Host.scatterAdd scatter_S50000_S1250000x1_S1250000_n_0_0_1 (V m c main_v30 : (⟨S50000, .f32⟩ : BufTy).Contents (Elt F)) (V m c main_v31 : (⟨S1250000x1, .i32⟩ : BufTy).Contents (Elt F)) (V m c main_v29 : (⟨S1250000, .f32⟩ : BufTy).Contents (Elt F)) :=
  V_ternary m c main_v30 main_v31 main_v29 main_v32 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)) 43 rfl (by decide) (by decide) (by decide) (by decide) (by decide) (by decide) (by decide)

theorem eq_main_cst_9 :
    V m c main_cst_9 = (constant S_ .f32 0x42800000#32 : (⟨S_, .f32⟩ : BufTy).Contents (Elt F)) :=
  V_nullary m c main_cst_9 (constant S_ .f32 0x42800000#32) 44 rfl (by decide)

theorem eq_main_v33 :
    V m c main_v33 = (broadcastInDim S50000 ![] bcast_S_S50000 : (⟨S_, .f32⟩ : BufTy).Contents (Elt F) → (⟨S50000, .f32⟩ : BufTy).Contents (Elt F)) (V m c main_cst_9 : (⟨S_, .f32⟩ : BufTy).Contents (Elt F)) :=
  V_unary m c main_cst_9 main_v33 (broadcastInDim S50000 ![] bcast_S_S50000 : (⟨S_, .f32⟩ : BufTy).Contents (Elt F) → (⟨S50000, .f32⟩ : BufTy).Contents (Elt F)) 45 rfl (by decide) (by decide) (by decide)

theorem eq_main_v34 :
    V m c main_v34 = (mulf : (⟨S50000, .f32⟩ : BufTy).Contents (Elt F) → (⟨S50000, .f32⟩ : BufTy).Contents (Elt F) → (⟨S50000, .f32⟩ : BufTy).Contents (Elt F)) (V m c main_v33 : (⟨S50000, .f32⟩ : BufTy).Contents (Elt F)) (V m c main_v12 : (⟨S50000, .f32⟩ : BufTy).Contents (Elt F)) :=
  V_binary m c main_v33 main_v12 main_v34 (mulf : (⟨S50000, .f32⟩ : BufTy).Contents (Elt F) → (⟨S50000, .f32⟩ : BufTy).Contents (Elt F) → (⟨S50000, .f32⟩ : BufTy).Contents (Elt F)) 46 rfl (by decide) (by decide) (by decide) (by decide) (by decide)

theorem eq_main_v35 :
    V m c main_v35 = (Host.divf : (⟨S50000, .f32⟩ : BufTy).Contents (Elt F) → (⟨S50000, .f32⟩ : BufTy).Contents (Elt F) → (⟨S50000, .f32⟩ : BufTy).Contents (Elt F)) (V m c main_v22 : (⟨S50000, .f32⟩ : BufTy).Contents (Elt F)) (V m c main_v34 : (⟨S50000, .f32⟩ : BufTy).Contents (Elt F)) :=
  V_binary m c main_v22 main_v34 main_v35 (Host.divf : (⟨S50000, .f32⟩ : BufTy).Contents (Elt F) → (⟨S50000, .f32⟩ : BufTy).Contents (Elt F) → (⟨S50000, .f32⟩ : BufTy).Contents (Elt F)) 47 rfl (by decide) (by decide) (by decide) (by decide) (by decide)

theorem eq_main_v36 :
    V m c main_v36 = (mulf : (⟨S50000, .f32⟩ : BufTy).Contents (Elt F) → (⟨S50000, .f32⟩ : BufTy).Contents (Elt F) → (⟨S50000, .f32⟩ : BufTy).Contents (Elt F)) (V m c main_v35 : (⟨S50000, .f32⟩ : BufTy).Contents (Elt F)) (V m c main_v22 : (⟨S50000, .f32⟩ : BufTy).Contents (Elt F)) :=
  V_binary m c main_v35 main_v22 main_v36 (mulf : (⟨S50000, .f32⟩ : BufTy).Contents (Elt F) → (⟨S50000, .f32⟩ : BufTy).Contents (Elt F) → (⟨S50000, .f32⟩ : BufTy).Contents (Elt F)) 48 rfl (by decide) (by decide) (by decide) (by decide) (by decide)

theorem eq_main_v37 :
    V m c main_v37 = (subf : (⟨S50000, .f32⟩ : BufTy).Contents (Elt F) → (⟨S50000, .f32⟩ : BufTy).Contents (Elt F) → (⟨S50000, .f32⟩ : BufTy).Contents (Elt F)) (V m c main_v32 : (⟨S50000, .f32⟩ : BufTy).Contents (Elt F)) (V m c main_v36 : (⟨S50000, .f32⟩ : BufTy).Contents (Elt F)) :=
  V_binary m c main_v32 main_v36 main_v37 (subf : (⟨S50000, .f32⟩ : BufTy).Contents (Elt F) → (⟨S50000, .f32⟩ : BufTy).Contents (Elt F) → (⟨S50000, .f32⟩ : BufTy).Contents (Elt F)) 49 rfl (by decide) (by decide) (by decide) (by decide) (by decide)

theorem eq_main_v38 :
    V m c main_v38 = (Host.divf : (⟨S50000, .f32⟩ : BufTy).Contents (Elt F) → (⟨S50000, .f32⟩ : BufTy).Contents (Elt F) → (⟨S50000, .f32⟩ : BufTy).Contents (Elt F)) (V m c main_v37 : (⟨S50000, .f32⟩ : BufTy).Contents (Elt F)) (V m c main_v34 : (⟨S50000, .f32⟩ : BufTy).Contents (Elt F)) :=
  V_binary m c main_v37 main_v34 main_v38 (Host.divf : (⟨S50000, .f32⟩ : BufTy).Contents (Elt F) → (⟨S50000, .f32⟩ : BufTy).Contents (Elt F) → (⟨S50000, .f32⟩ : BufTy).Contents (Elt F)) 50 rfl (by decide) (by decide) (by decide) (by decide) (by decide)

theorem eq_main_cst_10 :
    V m c main_cst_10 = (constant S_ .f32 0x00000000#32 : (⟨S_, .f32⟩ : BufTy).Contents (Elt F)) :=
  V_nullary m c main_cst_10 (constant S_ .f32 0x00000000#32) 51 rfl (by decide)

theorem eq_main_v39 :
    V m c main_v39 = (broadcastInDim S50000 ![] bcast_S_S50000 : (⟨S_, .f32⟩ : BufTy).Contents (Elt F) → (⟨S50000, .f32⟩ : BufTy).Contents (Elt F)) (V m c main_cst_10 : (⟨S_, .f32⟩ : BufTy).Contents (Elt F)) :=
  V_unary m c main_cst_10 main_v39 (broadcastInDim S50000 ![] bcast_S_S50000 : (⟨S_, .f32⟩ : BufTy).Contents (Elt F) → (⟨S50000, .f32⟩ : BufTy).Contents (Elt F)) 52 rfl (by decide) (by decide) (by decide)

theorem eq_main_v40 :
    V m c main_v40 = (maximumf : (⟨S50000, .f32⟩ : BufTy).Contents (Elt F) → (⟨S50000, .f32⟩ : BufTy).Contents (Elt F) → (⟨S50000, .f32⟩ : BufTy).Contents (Elt F)) (V m c main_v38 : (⟨S50000, .f32⟩ : BufTy).Contents (Elt F)) (V m c main_v39 : (⟨S50000, .f32⟩ : BufTy).Contents (Elt F)) :=
  V_binary m c main_v38 main_v39 main_v40 (maximumf : (⟨S50000, .f32⟩ : BufTy).Contents (Elt F) → (⟨S50000, .f32⟩ : BufTy).Contents (Elt F) → (⟨S50000, .f32⟩ : BufTy).Contents (Elt F)) 53 rfl (by decide) (by decide) (by decide) (by decide) (by decide)

theorem eq_main_c_11 :
    V m c main_c_11 = (constantI S_ 32 0#32 : (⟨S_, .i32⟩ : BufTy).Contents (Elt F)) :=
  V_nullary m c main_c_11 (constantI S_ 32 0#32) 54 rfl (by decide)

theorem eq_main_v41 :
    V m c main_v41 = (broadcastInDim S1250000 ![] bcast_S_S1250000 : (⟨S_, .i32⟩ : BufTy).Contents (Elt F) → (⟨S1250000, .i32⟩ : BufTy).Contents (Elt F)) (V m c main_c_11 : (⟨S_, .i32⟩ : BufTy).Contents (Elt F)) :=
  V_unary m c main_c_11 main_v41 (broadcastInDim S1250000 ![] bcast_S_S1250000 : (⟨S_, .i32⟩ : BufTy).Contents (Elt F) → (⟨S1250000, .i32⟩ : BufTy).Contents (Elt F)) 55 rfl (by decide) (by decide) (by decide)

theorem eq_main_v42 :
    V m c main_v42 = (cmpi .slt : (⟨S1250000, .i32⟩ : BufTy).Contents (Elt F) → (⟨S1250000, .i32⟩ : BufTy).Contents (Elt F) → (⟨S1250000, .i1⟩ : BufTy).Contents (Elt F)) (V m c main_v1 : (⟨S1250000, .i32⟩ : BufTy).Contents (Elt F)) (V m c main_v41 : (⟨S1250000, .i32⟩ : BufTy).Contents (Elt F)) :=
  V_binary m c main_v1 main_v41 main_v42 (cmpi .slt : (⟨S1250000, .i32⟩ : BufTy).Contents (Elt F) → (⟨S1250000, .i32⟩ : BufTy).Contents (Elt F) → (⟨S1250000, .i1⟩ : BufTy).Contents (Elt F)) 56 rfl (by decide) (by decide) (by decide) (by decide) (by decide)

theorem eq_main_c_12 :
    V m c main_c_12 = (constantI S_ 32 50000#32 : (⟨S_, .i32⟩ : BufTy).Contents (Elt F)) :=
  V_nullary m c main_c_12 (constantI S_ 32 50000#32) 57 rfl (by decide)

theorem eq_main_v43 :
    V m c main_v43 = (broadcastInDim S1250000 ![] bcast_S_S1250000 : (⟨S_, .i32⟩ : BufTy).Contents (Elt F) → (⟨S1250000, .i32⟩ : BufTy).Contents (Elt F)) (V m c main_c_12 : (⟨S_, .i32⟩ : BufTy).Contents (Elt F)) :=
  V_unary m c main_c_12 main_v43 (broadcastInDim S1250000 ![] bcast_S_S1250000 : (⟨S_, .i32⟩ : BufTy).Contents (Elt F) → (⟨S1250000, .i32⟩ : BufTy).Contents (Elt F)) 58 rfl (by decide) (by decide) (by decide)

theorem eq_main_v44 :
    V m c main_v44 = (addi : (⟨S1250000, .i32⟩ : BufTy).Contents (Elt F) → (⟨S1250000, .i32⟩ : BufTy).Contents (Elt F) → (⟨S1250000, .i32⟩ : BufTy).Contents (Elt F)) (V m c main_v1 : (⟨S1250000, .i32⟩ : BufTy).Contents (Elt F)) (V m c main_v43 : (⟨S1250000, .i32⟩ : BufTy).Contents (Elt F)) :=
  V_binary m c main_v1 main_v43 main_v44 (addi : (⟨S1250000, .i32⟩ : BufTy).Contents (Elt F) → (⟨S1250000, .i32⟩ : BufTy).Contents (Elt F) → (⟨S1250000, .i32⟩ : BufTy).Contents (Elt F)) 59 rfl (by decide) (by decide) (by decide) (by decide) (by decide)

theorem eq_main_v45 :
    V m c main_v45 = (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) (V m c main_v42 : (⟨S1250000, .i1⟩ : BufTy).Contents (Elt F)) (V m c main_v44 : (⟨S1250000, .i32⟩ : BufTy).Contents (Elt F)) (V m c main_v1 : (⟨S1250000, .i32⟩ : BufTy).Contents (Elt F)) :=
  V_ternary m c main_v42 main_v44 main_v1 main_v45 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) 60 rfl (by decide) (by decide) (by decide) (by decide) (by decide) (by decide) (by decide)

theorem eq_main_v46 :
    V m c main_v46 = (broadcastInDim S1250000x1 ![0] bcast_S1250000_S1250000x1_0 : (⟨S1250000, .i32⟩ : BufTy).Contents (Elt F) → (⟨S1250000x1, .i32⟩ : BufTy).Contents (Elt F)) (V m c main_v45 : (⟨S1250000, .i32⟩ : BufTy).Contents (Elt F)) :=
  V_unary m c main_v45 main_v46 (broadcastInDim S1250000x1 ![0] bcast_S1250000_S1250000x1_0 : (⟨S1250000, .i32⟩ : BufTy).Contents (Elt F) → (⟨S1250000x1, .i32⟩ : BufTy).Contents (Elt F)) 61 rfl (by decide) (by decide) (by decide)

theorem eq_main_v47 :
    V m c main_v47 = Host.gather gather_S50000_S1250000x1_S1250000_n_0_n_n_0_1_1 (V m c main_v35 : (⟨S50000, .f32⟩ : BufTy).Contents (Elt F)) (V m c main_v46 : (⟨S1250000x1, .i32⟩ : BufTy).Contents (Elt F)) :=
  V_binary m c main_v35 main_v46 main_v47 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)) 62 rfl (by decide) (by decide) (by decide) (by decide) (by decide)

theorem eq_main_c_13 :
    V m c main_c_13 = (constantI S_ 32 0#32 : (⟨S_, .i32⟩ : BufTy).Contents (Elt F)) :=
  V_nullary m c main_c_13 (constantI S_ 32 0#32) 63 rfl (by decide)

theorem eq_main_v48 :
    V m c main_v48 = (broadcastInDim S1250000 ![] bcast_S_S1250000 : (⟨S_, .i32⟩ : BufTy).Contents (Elt F) → (⟨S1250000, .i32⟩ : BufTy).Contents (Elt F)) (V m c main_c_13 : (⟨S_, .i32⟩ : BufTy).Contents (Elt F)) :=
  V_unary m c main_c_13 main_v48 (broadcastInDim S1250000 ![] bcast_S_S1250000 : (⟨S_, .i32⟩ : BufTy).Contents (Elt F) → (⟨S1250000, .i32⟩ : BufTy).Contents (Elt F)) 64 rfl (by decide) (by decide) (by decide)

theorem eq_main_v49 :
    V m c main_v49 = (cmpi .slt : (⟨S1250000, .i32⟩ : BufTy).Contents (Elt F) → (⟨S1250000, .i32⟩ : BufTy).Contents (Elt F) → (⟨S1250000, .i1⟩ : BufTy).Contents (Elt F)) (V m c main_v1 : (⟨S1250000, .i32⟩ : BufTy).Contents (Elt F)) (V m c main_v48 : (⟨S1250000, .i32⟩ : BufTy).Contents (Elt F)) :=
  V_binary m c main_v1 main_v48 main_v49 (cmpi .slt : (⟨S1250000, .i32⟩ : BufTy).Contents (Elt F) → (⟨S1250000, .i32⟩ : BufTy).Contents (Elt F) → (⟨S1250000, .i1⟩ : BufTy).Contents (Elt F)) 65 rfl (by decide) (by decide) (by decide) (by decide) (by decide)

theorem eq_main_c_14 :
    V m c main_c_14 = (constantI S_ 32 50000#32 : (⟨S_, .i32⟩ : BufTy).Contents (Elt F)) :=
  V_nullary m c main_c_14 (constantI S_ 32 50000#32) 66 rfl (by decide)

theorem eq_main_v50 :
    V m c main_v50 = (broadcastInDim S1250000 ![] bcast_S_S1250000 : (⟨S_, .i32⟩ : BufTy).Contents (Elt F) → (⟨S1250000, .i32⟩ : BufTy).Contents (Elt F)) (V m c main_c_14 : (⟨S_, .i32⟩ : BufTy).Contents (Elt F)) :=
  V_unary m c main_c_14 main_v50 (broadcastInDim S1250000 ![] bcast_S_S1250000 : (⟨S_, .i32⟩ : BufTy).Contents (Elt F) → (⟨S1250000, .i32⟩ : BufTy).Contents (Elt F)) 67 rfl (by decide) (by decide) (by decide)

theorem eq_main_v51 :
    V m c main_v51 = (addi : (⟨S1250000, .i32⟩ : BufTy).Contents (Elt F) → (⟨S1250000, .i32⟩ : BufTy).Contents (Elt F) → (⟨S1250000, .i32⟩ : BufTy).Contents (Elt F)) (V m c main_v1 : (⟨S1250000, .i32⟩ : BufTy).Contents (Elt F)) (V m c main_v50 : (⟨S1250000, .i32⟩ : BufTy).Contents (Elt F)) :=
  V_binary m c main_v1 main_v50 main_v51 (addi : (⟨S1250000, .i32⟩ : BufTy).Contents (Elt F) → (⟨S1250000, .i32⟩ : BufTy).Contents (Elt F) → (⟨S1250000, .i32⟩ : BufTy).Contents (Elt F)) 68 rfl (by decide) (by decide) (by decide) (by decide) (by decide)

theorem eq_main_v52 :
    V m c main_v52 = (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) (V m c main_v49 : (⟨S1250000, .i1⟩ : BufTy).Contents (Elt F)) (V m c main_v51 : (⟨S1250000, .i32⟩ : BufTy).Contents (Elt F)) (V m c main_v1 : (⟨S1250000, .i32⟩ : BufTy).Contents (Elt F)) :=
  V_ternary m c main_v49 main_v51 main_v1 main_v52 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) 69 rfl (by decide) (by decide) (by decide) (by decide) (by decide) (by decide) (by decide)

theorem eq_main_v53 :
    V m c main_v53 = (broadcastInDim S1250000x1 ![0] bcast_S1250000_S1250000x1_0 : (⟨S1250000, .i32⟩ : BufTy).Contents (Elt F) → (⟨S1250000x1, .i32⟩ : BufTy).Contents (Elt F)) (V m c main_v52 : (⟨S1250000, .i32⟩ : BufTy).Contents (Elt F)) :=
  V_unary m c main_v52 main_v53 (broadcastInDim S1250000x1 ![0] bcast_S1250000_S1250000x1_0 : (⟨S1250000, .i32⟩ : BufTy).Contents (Elt F) → (⟨S1250000x1, .i32⟩ : BufTy).Contents (Elt F)) 70 rfl (by decide) (by decide) (by decide)

theorem eq_main_v54 :
    V m c main_v54 = Host.gather gather_S50000_S1250000x1_S1250000_n_0_n_n_0_1_1 (V m c main_v40 : (⟨S50000, .f32⟩ : BufTy).Contents (Elt F)) (V m c main_v53 : (⟨S1250000x1, .i32⟩ : BufTy).Contents (Elt F)) :=
  V_binary m c main_v40 main_v53 main_v54 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)) 71 rfl (by decide) (by decide) (by decide) (by decide) (by decide)

theorem eq_main_cst_15 :
    V m c main_cst_15 = (constant S_ .f32 0x3727C5AC#32 : (⟨S_, .f32⟩ : BufTy).Contents (Elt F)) :=
  V_nullary m c main_cst_15 (constant S_ .f32 0x3727C5AC#32) 72 rfl (by decide)

theorem eq_main_v55 :
    V m c main_v55 = (broadcastInDim S1250000 ![] bcast_S_S1250000 : (⟨S_, .f32⟩ : BufTy).Contents (Elt F) → (⟨S1250000, .f32⟩ : BufTy).Contents (Elt F)) (V m c main_cst_15 : (⟨S_, .f32⟩ : BufTy).Contents (Elt F)) :=
  V_unary m c main_cst_15 main_v55 (broadcastInDim S1250000 ![] bcast_S_S1250000 : (⟨S_, .f32⟩ : BufTy).Contents (Elt F) → (⟨S1250000, .f32⟩ : BufTy).Contents (Elt F)) 73 rfl (by decide) (by decide) (by decide)

theorem eq_main_v56 :
    V m c main_v56 = (addf : (⟨S1250000, .f32⟩ : BufTy).Contents (Elt F) → (⟨S1250000, .f32⟩ : BufTy).Contents (Elt F) → (⟨S1250000, .f32⟩ : BufTy).Contents (Elt F)) (V m c main_v54 : (⟨S1250000, .f32⟩ : BufTy).Contents (Elt F)) (V m c main_v55 : (⟨S1250000, .f32⟩ : BufTy).Contents (Elt F)) :=
  V_binary m c main_v54 main_v55 main_v56 (addf : (⟨S1250000, .f32⟩ : BufTy).Contents (Elt F) → (⟨S1250000, .f32⟩ : BufTy).Contents (Elt F) → (⟨S1250000, .f32⟩ : BufTy).Contents (Elt F)) 74 rfl (by decide) (by decide) (by decide) (by decide) (by decide)

theorem eq_main_v57 :
    V m c main_v57 = (Host.rsqrt : (⟨S1250000, .f32⟩ : BufTy).Contents (Elt F) → (⟨S1250000, .f32⟩ : BufTy).Contents (Elt F)) (V m c main_v56 : (⟨S1250000, .f32⟩ : BufTy).Contents (Elt F)) :=
  V_unary m c main_v56 main_v57 (Host.rsqrt : (⟨S1250000, .f32⟩ : BufTy).Contents (Elt F) → (⟨S1250000, .f32⟩ : BufTy).Contents (Elt F)) 75 rfl (by decide) (by decide) (by decide)

theorem eq_main_c_16 :
    V m c main_c_16 = (constantI S_ 32 0#32 : (⟨S_, .i32⟩ : BufTy).Contents (Elt F)) :=
  V_nullary m c main_c_16 (constantI S_ 32 0#32) 76 rfl (by decide)

theorem eq_main_v58 :
    V m c main_v58 = (broadcastInDim S1250000 ![] bcast_S_S1250000 : (⟨S_, .i32⟩ : BufTy).Contents (Elt F) → (⟨S1250000, .i32⟩ : BufTy).Contents (Elt F)) (V m c main_c_16 : (⟨S_, .i32⟩ : BufTy).Contents (Elt F)) :=
  V_unary m c main_c_16 main_v58 (broadcastInDim S1250000 ![] bcast_S_S1250000 : (⟨S_, .i32⟩ : BufTy).Contents (Elt F) → (⟨S1250000, .i32⟩ : BufTy).Contents (Elt F)) 77 rfl (by decide) (by decide) (by decide)

theorem eq_main_v59 :
    V m c main_v59 = (cmpi .slt : (⟨S1250000, .i32⟩ : BufTy).Contents (Elt F) → (⟨S1250000, .i32⟩ : BufTy).Contents (Elt F) → (⟨S1250000, .i1⟩ : BufTy).Contents (Elt F)) (V m c main_v3 : (⟨S1250000, .i32⟩ : BufTy).Contents (Elt F)) (V m c main_v58 : (⟨S1250000, .i32⟩ : BufTy).Contents (Elt F)) :=
  V_binary m c main_v3 main_v58 main_v59 (cmpi .slt : (⟨S1250000, .i32⟩ : BufTy).Contents (Elt F) → (⟨S1250000, .i32⟩ : BufTy).Contents (Elt F) → (⟨S1250000, .i1⟩ : BufTy).Contents (Elt F)) 78 rfl (by decide) (by decide) (by decide) (by decide) (by decide)

theorem eq_main_c_17 :
    V m c main_c_17 = (constantI S_ 32 50000#32 : (⟨S_, .i32⟩ : BufTy).Contents (Elt F)) :=
  V_nullary m c main_c_17 (constantI S_ 32 50000#32) 79 rfl (by decide)

theorem eq_main_v60 :
    V m c main_v60 = (broadcastInDim S1250000 ![] bcast_S_S1250000 : (⟨S_, .i32⟩ : BufTy).Contents (Elt F) → (⟨S1250000, .i32⟩ : BufTy).Contents (Elt F)) (V m c main_c_17 : (⟨S_, .i32⟩ : BufTy).Contents (Elt F)) :=
  V_unary m c main_c_17 main_v60 (broadcastInDim S1250000 ![] bcast_S_S1250000 : (⟨S_, .i32⟩ : BufTy).Contents (Elt F) → (⟨S1250000, .i32⟩ : BufTy).Contents (Elt F)) 80 rfl (by decide) (by decide) (by decide)

theorem eq_main_v61 :
    V m c main_v61 = (addi : (⟨S1250000, .i32⟩ : BufTy).Contents (Elt F) → (⟨S1250000, .i32⟩ : BufTy).Contents (Elt F) → (⟨S1250000, .i32⟩ : BufTy).Contents (Elt F)) (V m c main_v3 : (⟨S1250000, .i32⟩ : BufTy).Contents (Elt F)) (V m c main_v60 : (⟨S1250000, .i32⟩ : BufTy).Contents (Elt F)) :=
  V_binary m c main_v3 main_v60 main_v61 (addi : (⟨S1250000, .i32⟩ : BufTy).Contents (Elt F) → (⟨S1250000, .i32⟩ : BufTy).Contents (Elt F) → (⟨S1250000, .i32⟩ : BufTy).Contents (Elt F)) 81 rfl (by decide) (by decide) (by decide) (by decide) (by decide)

theorem eq_main_v62 :
    V m c main_v62 = (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) (V m c main_v59 : (⟨S1250000, .i1⟩ : BufTy).Contents (Elt F)) (V m c main_v61 : (⟨S1250000, .i32⟩ : BufTy).Contents (Elt F)) (V m c main_v3 : (⟨S1250000, .i32⟩ : BufTy).Contents (Elt F)) :=
  V_ternary m c main_v59 main_v61 main_v3 main_v62 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) 82 rfl (by decide) (by decide) (by decide) (by decide) (by decide) (by decide) (by decide)

theorem eq_main_v63 :
    V m c main_v63 = (broadcastInDim S1250000x1 ![0] bcast_S1250000_S1250000x1_0 : (⟨S1250000, .i32⟩ : BufTy).Contents (Elt F) → (⟨S1250000x1, .i32⟩ : BufTy).Contents (Elt F)) (V m c main_v62 : (⟨S1250000, .i32⟩ : BufTy).Contents (Elt F)) :=
  V_unary m c main_v62 main_v63 (broadcastInDim S1250000x1 ![0] bcast_S1250000_S1250000x1_0 : (⟨S1250000, .i32⟩ : BufTy).Contents (Elt F) → (⟨S1250000x1, .i32⟩ : BufTy).Contents (Elt F)) 83 rfl (by decide) (by decide) (by decide)

theorem eq_main_v64 :
    V m c main_v64 = Host.gather gather_S50000x64_S1250000x1_S1250000x64_1_0_n_n_0_1_164 (V m c main_arg0 : (⟨S50000x64, .f32⟩ : BufTy).Contents (Elt F)) (V m c main_v63 : (⟨S1250000x1, .i32⟩ : BufTy).Contents (Elt F)) :=
  V_binary m c main_arg0 main_v63 main_v64 ((fun x i => Host.gather gather_S50000x64_S1250000x1_S1250000x64_1_0_n_n_0_1_164 x i) : (⟨S50000x64, .f32⟩ : BufTy).Contents (Elt F) → (⟨S1250000x1, .i32⟩ : BufTy).Contents (Elt F) → (⟨S1250000x64, .f32⟩ : BufTy).Contents (Elt F)) 84 rfl (by decide) (by decide) (by decide) (by decide) (by decide)

theorem eq_main_v65 :
    V m c main_v65 = shapeCast S625000x128 (V m c main_v64 : (⟨S1250000x64, .f32⟩ : BufTy).Contents (Elt F)) shapeCasts_S1250000x64_S625000x128 :=
  V_reshape m c main_v64 main_v65 rfl shapeCasts_S1250000x64_S625000x128 85 rfl (by decide) (by decide) (by decide)

theorem eq_main_v66 :
    V m c main_v66 = shapeCast S625000x2 (V m c main_v47 : (⟨S1250000, .f32⟩ : BufTy).Contents (Elt F)) shapeCasts_S1250000_S625000x2 :=
  V_reshape m c main_v47 main_v66 rfl shapeCasts_S1250000_S625000x2 86 rfl (by decide) (by decide) (by decide)

theorem eq_main_v67 :
    V m c main_v67 = shapeCast S625000x2 (V m c main_v57 : (⟨S1250000, .f32⟩ : BufTy).Contents (Elt F)) shapeCasts_S1250000_S625000x2 :=
  V_reshape m c main_v57 main_v67 rfl shapeCasts_S1250000_S625000x2 87 rfl (by decide) (by decide) (by decide)

theorem eq_main_v68 :
    V m c main_v68 = concatenate S625000x4 1 [⟨S625000x2, (V m c main_v66 : (⟨S625000x2, .f32⟩ : BufTy).Contents (Elt F))⟩, ⟨S625000x2, (V m c main_v67 : (⟨S625000x2, .f32⟩ : BufTy).Contents (Elt F))⟩] concatenates_S625000x2_S625000x2_S625000x4_d1 :=
  V_binary m c main_v66 main_v67 main_v68 ((fun a b => concatenate S625000x4 1 [⟨S625000x2, a⟩, ⟨S625000x2, b⟩] concatenates_S625000x2_S625000x2_S625000x4_d1) : (⟨S625000x2, .f32⟩ : BufTy).Contents (Elt F) → (⟨S625000x2, .f32⟩ : BufTy).Contents (Elt F) → (⟨S625000x4, .f32⟩ : BufTy).Contents (Elt F)) 88 rfl (by decide) (by decide) (by decide) (by decide) (by decide)

theorem eq_main_v69 :
    V m c main_v69 = shapeCast S1x64 (V m c main_arg2 : (⟨S64, .f32⟩ : BufTy).Contents (Elt F)) shapeCasts_S64_S1x64 :=
  V_reshape m c main_arg2 main_v69 rfl shapeCasts_S64_S1x64 89 rfl (by decide) (by decide) (by decide)

theorem eq_main_v70 :
    V m c main_v70 = (broadcastInDim S2x64 ![0, 1] bcast_S1x64_S2x64_0_1 : (⟨S1x64, .f32⟩ : BufTy).Contents (Elt F) → (⟨S2x64, .f32⟩ : BufTy).Contents (Elt F)) (V m c main_v69 : (⟨S1x64, .f32⟩ : BufTy).Contents (Elt F)) :=
  V_unary m c main_v69 main_v70 (broadcastInDim S2x64 ![0, 1] bcast_S1x64_S2x64_0_1 : (⟨S1x64, .f32⟩ : BufTy).Contents (Elt F) → (⟨S2x64, .f32⟩ : BufTy).Contents (Elt F)) 90 rfl (by decide) (by decide) (by decide)

theorem eq_main_v71 :
    V m c main_v71 = shapeCast S128 (V m c main_v70 : (⟨S2x64, .f32⟩ : BufTy).Contents (Elt F)) shapeCasts_S2x64_S128 :=
  V_reshape m c main_v70 main_v71 rfl shapeCasts_S2x64_S128 91 rfl (by decide) (by decide) (by decide)

theorem eq_main_v72 :
    V m c main_v72 = shapeCast S1x64 (V m c main_arg3 : (⟨S64, .f32⟩ : BufTy).Contents (Elt F)) shapeCasts_S64_S1x64 :=
  V_reshape m c main_arg3 main_v72 rfl shapeCasts_S64_S1x64 92 rfl (by decide) (by decide) (by decide)

theorem eq_main_v73 :
    V m c main_v73 = (broadcastInDim S2x64 ![0, 1] bcast_S1x64_S2x64_0_1 : (⟨S1x64, .f32⟩ : BufTy).Contents (Elt F) → (⟨S2x64, .f32⟩ : BufTy).Contents (Elt F)) (V m c main_v72 : (⟨S1x64, .f32⟩ : BufTy).Contents (Elt F)) :=
  V_unary m c main_v72 main_v73 (broadcastInDim S2x64 ![0, 1] bcast_S1x64_S2x64_0_1 : (⟨S1x64, .f32⟩ : BufTy).Contents (Elt F) → (⟨S2x64, .f32⟩ : BufTy).Contents (Elt F)) 93 rfl (by decide) (by decide) (by decide)

theorem eq_main_v74 :
    V m c main_v74 = shapeCast S128 (V m c main_v73 : (⟨S2x64, .f32⟩ : BufTy).Contents (Elt F)) shapeCasts_S2x64_S128 :=
  V_reshape m c main_v73 main_v74 rfl shapeCasts_S2x64_S128 94 rfl (by decide) (by decide) (by decide)

end Cert.NbrNorm.KHost

end
-- ==== Proof.KHostReadA.lean ====
/-
  The kernel region's window arrays, read at an index.

  Three of the arrays the kernel region reads are layout rearrangements of the program's arguments: the scale and
  the shift vectors, each written twice in a row (a vector of 64 reshaped to one row, the row repeated, the two rows
  flattened to 128), and the gathered source features, one edge's 64 features per row, reshaped so that each row holds
  two consecutive edges. Read at an index they are the arguments at an index computed by division and remainder.
-/
import proofs.«141859_j10153302687998_2_alg».proof.Proof.KHostEqs
import proofs.«141859_j10153302687998_2_alg».proof.Proof.NbrSpec
import proofs.«141859_j10153302687998_2_alg».proof.Proof.LibRowIndex
import Idealize.ShloMosaic.Lib.ValueIdx
import Idealize.ShloMosaic.Lib.ValueLayout
import Idealize.ShloMosaic.Lib.Pipeline.Value

set_option maxRecDepth 16384

noncomputable section

namespace Cert.NbrNorm.KHost

open Cert.KernelIdeal Cert.KernelIdeal.Gen Idealize.ShloMosaic Idealize.ShloMosaic.StableHlo Idealize.ShloMosaic.ValueIdx

variable {F : FTy → Type} [FloatOps F] (m : (ℓ : Loc nD τ sig) → Buf (Elt F) ℓ) (c : Dev nD)

/-! ## The scale and the shift, doubled -/

/-- The doubled vector at position l is the vector at l modulo 64. -/
theorem gamma2_apply (l : Fin 128) :
    (V m c main_v71 : (⟨S128, .f32⟩ : BufTy).Contents (Elt F)) (ix1 l)
      = (V m c main_arg2 : (⟨S64, .f32⟩ : BufTy).Contents (Elt F)) (ix1 (⟨l.val % 64, Nat.mod_lt _ (by decide)⟩ : Fin 64)) := by
  have hl := l.isLt
  rw [eq_main_v71 m c]
  rw [shapeCast_apply _ shapeCasts_S2x64_S128 (ix1 l)
    (ix2 (⟨l.val / 64, by omega⟩ : Fin 2) (⟨l.val % 64, Nat.mod_lt _ (by decide)⟩ : Fin 64))
    (by rw [Shape.rowMajor_val_two, Shape.rowMajor_val_one]; show l.val / 64 * 64 + l.val % 64 = l.val; omega)]
  rw [eq_main_v70 m c]
  rw [broadcastInDim_apply _ _ _ _ (ix2 (0 : Fin 1) (⟨l.val % 64, Nat.mod_lt _ (by decide)⟩ : Fin 64))
    (by intro a; match a with | ⟨0, _⟩ => rfl | ⟨1, _⟩ => rfl)]
  rw [eq_main_v69 m c, shapeCast_a_1a_apply]

/-- The doubled vector at position l is the vector at l modulo 64. -/
theorem beta2_apply (l : Fin 128) :
    (V m c main_v74 : (⟨S128, .f32⟩ : BufTy).Contents (Elt F)) (ix1 l)
      = (V m c main_arg3 : (⟨S64, .f32⟩ : BufTy).Contents (Elt F)) (ix1 (⟨l.val % 64, Nat.mod_lt _ (by decide)⟩ : Fin 64)) := by
  have hl := l.isLt
  rw [eq_main_v74 m c]
  rw [shapeCast_apply _ shapeCasts_S2x64_S128 (ix1 l)
    (ix2 (⟨l.val / 64, by omega⟩ : Fin 2) (⟨l.val % 64, Nat.mod_lt _ (by decide)⟩ : Fin 64))
    (by rw [Shape.rowMajor_val_two, Shape.rowMajor_val_one]; show l.val / 64 * 64 + l.val % 64 = l.val; omega)]
  rw [eq_main_v73 m c]
  rw [broadcastInDim_apply _ _ _ _ (ix2 (0 : Fin 1) (⟨l.val % 64, Nat.mod_lt _ (by decide)⟩ : Fin 64))
    (by intro a; match a with | ⟨0, _⟩ => rfl | ⟨1, _⟩ => rfl)]
  rw [eq_main_v72 m c, shapeCast_a_1a_apply]

/-! ## Integer operations at an index (definitional) -/

theorem cmpi_at {s : Shape} {w : Nat} (p : CmpIPredicate) (a b : IVec s w) (i : s.Idx) :
    cmpi p a b i = IntOp.cmpi p (a i) (b i) := rfl
theorem addi_at {s : Shape} {w : Nat} (a b : IVec s w) (i : s.Idx) : addi a b i = IntOp.addi (a i) (b i) := rfl
/-- A scalar constant broadcast along the edges reads the constant. -/
theorem bcast_const_at (b : BitVec 32) (e : Fin 1250000) :
    broadcastInDim S1250000 ![] bcast_S_S1250000 (constantI S_ 32 b) (ix1 e) = b := rfl

/-! ## The source column of the index array, wrapped -/

/-- Row 1 of the index array, flattened: the edges' source numbers. -/
theorem col_apply (e : Fin 1250000) :
    (V m c main_v3 : (⟨S1250000, .i32⟩ : BufTy).Contents (Elt F)) (ix1 e)
      = (V m c main_arg1 : (⟨S2x1250000, .i32⟩ : BufTy).Contents (Elt F)) (ix2 (1 : Fin 2) e) := by
  rw [eq_main_v3 m c, shapeCast_1a_a_apply, eq_main_v2 m c]
  exact extractStridedSlice_apply _ _ _ _ (ix2 (1 : Fin 2) e)
    (by intro a; match a with
      | ⟨0, _⟩ => rfl
      | ⟨1, _⟩ => exact (Nat.zero_add _).symm)

/-- The wrapped source numbers the feature gather reads: a negative number has the number of nodes added. -/
theorem colWrap_xc_apply (e : Fin 1250000) :
    (V m c main_v62 : (⟨S1250000, .i32⟩ : BufTy).Contents (Elt F)) (ix1 e)
      = wrapBV ((V m c main_arg1 : (⟨S2x1250000, .i32⟩ : BufTy).Contents (Elt F)) (ix2 (1 : Fin 2) e)) := by
  rw [eq_main_v62 m c, select_apply, eq_main_v59 m c, cmpi_at, eq_main_v61 m c, addi_at,
    eq_main_v58 m c, eq_main_v60 m c, eq_main_c_16 m c, eq_main_c_17 m c, bcast_const_at, bcast_const_at,
    col_apply m c e]
  rfl

/-- The same as the column of start indices the feature gather takes. -/
theorem colIdx_xc_apply (e : Fin 1250000) :
    (V m c main_v63 : (⟨S1250000x1, .i32⟩ : BufTy).Contents (Elt F)) (ix2 e (0 : Fin 1))
      = wrapBV ((V m c main_arg1 : (⟨S2x1250000, .i32⟩ : BufTy).Contents (Elt F)) (ix2 (1 : Fin 2) e)) := by
  rw [eq_main_v63 m c]
  rw [broadcastInDim_apply ![0] bcast_S1250000_S1250000x1_0 _ (ix2 e (0 : Fin 1)) (ix1 e)
    (by intro a; match a with | ⟨0, _⟩ => rfl)]
  exact colWrap_xc_apply m c e

/-- The whole column of start indices, as a function of its index. -/
theorem colIdx_xc_eq :
    (V m c main_v63 : (⟨S1250000x1, .i32⟩ : BufTy).Contents (Elt F))
      = fun j => wrapBV ((V m c main_arg1 : (⟨S2x1250000, .i32⟩ : BufTy).Contents (Elt F)) (ix2 (1 : Fin 2) (j 0))) := by
  refine funext fun (j : (⟨2, ![1250000, 1]⟩ : Shape).Idx) => ?_
  have h1 : j 1 = (0 : Fin 1) := Subsingleton.elim (α := Fin 1) _ _
  have hj : j = ix2 (j 0) (0 : Fin 1) := by rw [← h1]; exact eq_ix2 j
  conv_lhs => rw [hj]
  exact colIdx_xc_apply m c (j 0)

/-! ## The gathered source features, two edges per row -/

/-- Row i, position l of the first window's array: feature l modulo 64 of the source of edge 2 i + l / 64. -/
theorem xc2_apply (i : Fin 625000) (l : Fin 128) :
    (V m c main_v65 : (⟨S625000x128, .f32⟩ : BufTy).Contents (Elt F)) (ix2 i l)
      = (V m c main_arg0 : (⟨S50000x64, .f32⟩ : BufTy).Contents (Elt F))
          (ix2 (gcOf (V m c main_arg1 : (⟨S2x1250000, .i32⟩ : BufTy).Contents (Elt F))
                 (⟨2 * i.val + l.val / 64, by have := i.isLt; have := l.isLt; omega⟩ : Fin 1250000))
               (⟨l.val % 64, Nat.mod_lt _ (by decide)⟩ : Fin 64)) := by
  have hi := i.isLt
  have hl := l.isLt
  rw [eq_main_v65 m c]
  rw [shapeCast_apply _ shapeCasts_S1250000x64_S625000x128 (ix2 i l)
    (ix2 (⟨2 * i.val + l.val / 64, by omega⟩ : Fin 1250000) (⟨l.val % 64, Nat.mod_lt _ (by decide)⟩ : Fin 64))
    (by rw [Shape.rowMajor_val_two, Shape.rowMajor_val_two]
        show (2 * i.val + l.val / 64) * 64 + l.val % 64 = i.val * 128 + l.val
        omega)]
  rw [eq_main_v64 m c]
  rw [colIdx_xc_eq m c]
  show Host.gather (Cert.GNN.RowIndex.rowGatherDims 50000 1250000 64
    gather_S50000x64_S1250000x1_S1250000x64_1_0_n_n_0_1_164_wf) _ _ _ = _
  rw [Cert.GNN.RowIndex.gather_row_apply (by decide)]
  rfl

end Cert.NbrNorm.KHost

end
-- ==== Proof.LibConcat2.lean ====
/-
  A concatenation of two arrays, named.

  The printed programs write a two-operand `concatenate` over a list of two (shape, array) pairs, and the shape fact it
  takes is stated about that list, so its type mentions the two arrays. Naming the concatenation as a function of the
  two arrays, with the shape fact stated about the two shapes alone, makes the arrays ordinary arguments on which
  nothing else depends, which rewriting reaches.
-/
import Idealize.ShloMosaic.PureOps.ShapeOps

namespace Cert.LibConcat2

open Idealize.ShloMosaic

/-- The concatenation of `x` (of shape `s₁`) and `y` (of shape `s₂`) along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ h x y := rfl

end Cert.LibConcat2
-- ==== Proof.KOps.lean ====
/-
  The host operations of the one-pass neighbour normalisation, each read at an index.

  Every statement is over arbitrary operands of the program's literal shapes: a row sum of a [50000, 64] matrix,
  a scalar repeated along a vector, a vector laid as a one-column matrix, the wrapping of a signed row number,
  a flat gather and a flat scatter-add through a column of row numbers, a [1250000] vector re-laid as
  [625000, 2] (entry (i, j) is entry 2 i + j), and two [625000, 2] blocks set side by side.
-/
import proofs.«141859_j10153302687998_2_alg».proof.KernelIdeal
import proofs.«141859_j10153302687998_2_alg».proof.Proof.NbrSpec
import proofs.«141859_j10153302687998_2_alg».proof.Proof.LibRowIndex
import proofs.«141859_j10153302687998_2_alg».proof.Proof.LibVecIndex
import proofs.«141859_j10153302687998_2_alg».proof.Proof.LibKeepdims
import proofs.«141859_j10153302687998_2_alg».proof.Proof.LibConcat2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.NbrNorm.KOps

open Cert.KernelIdeal Cert.KernelIdeal.Facts₀ Idealize.ShloMosaic Idealize.ShloMosaic.ValueIdx

variable [Facts₀]

/-! ## The two rows of the index array -/

section Rows
variable {α : Type}

/-- Row 0 of a [2, 1250000] array, as a [1, 1250000] array. -/
theorem slice0_apply (edge : S2x1250000.Idx → α) (u : Fin 1) (e : Fin 1250000) :
    extractStridedSlice S1x1250000 ![0, 0] edge slices_S2x1250000_S1x1250000_0_0 (ix2 u e)
      = edge (ix2 (0 : Fin 2) e) := by
  refine extractStridedSlice_apply _ edge _ _ _ fun a => ?_
  have hu : u.val = 0 := by omega
  match a with
  | ⟨0, _⟩ => show 0 = 0 + u.val; omega
  | ⟨1, _⟩ => show e.val = 0 + e.val; omega

/-- Row 1 of a [2, 1250000] array, as a [1, 1250000] array. -/
theorem slice1_apply (edge : S2x1250000.Idx → α) (u : Fin 1) (e : Fin 1250000) :
    extractStridedSlice S1x1250000 ![1, 0] edge slices_S2x1250000_S1x1250000_1_0 (ix2 u e)
      = edge (ix2 (1 : Fin 2) e) := by
  refine extractStridedSlice_apply _ edge _ _ _ fun a => ?_
  have hu : u.val = 0 := by omega
  match a with
  | ⟨0, _⟩ => show 1 = 1 + u.val; omega
  | ⟨1, _⟩ => show e.val = 0 + e.val; omega

/-- A [1, 1250000] array flattened. -/
theorem flat_apply (y : S1x1250000.Idx → α) (e : Fin 1250000) :
    shapeCast S1250000 y shapeCasts_S1x1250000_S1250000 (ix1 e) = y (ix2 (0 : Fin 1) e) :=
  shapeCast_1a_a_apply y _ e

/-- Row 0 of the index array, flattened. -/
theorem row0_apply (edge : S2x1250000.Idx → α) (e : Fin 1250000) :
    shapeCast S1250000 (extractStridedSlice S1x1250000 ![0, 0] edge slices_S2x1250000_S1x1250000_0_0)
      shapeCasts_S1x1250000_S1250000 (ix1 e) = edge (ix2 (0 : Fin 2) e) := by
  rw [flat_apply, slice0_apply]

/-- Row 1 of the index array, flattened. -/
theorem row1_apply (edge : S2x1250000.Idx → α) (e : Fin 1250000) :
    shapeCast S1250000 (extractStridedSlice S1x1250000 ![1, 0] edge slices_S2x1250000_S1x1250000_1_0)
      shapeCasts_S1x1250000_S1250000 (ix1 e) = edge (ix2 (1 : Fin 2) e) := by
  rw [flat_apply, slice1_apply]

end Rows

/-! ## Scalars repeated, vectors laid as columns -/

section Broadcasts
variable {α : Type}

/-- A scalar repeated along the edges. -/
theorem splatE_apply (z : S_.Idx → α) (e : Fin 1250000) :
    broadcastInDim S1250000 ![] bcast_S_S1250000 z (ix1 e) = z ix0 :=
  broadcastInDim_apply _ bcast_S_S1250000 z _ _ fun a => a.elim0

/-- A scalar repeated along the nodes. -/
theorem splatN_apply (z : S_.Idx → α) (n : Fin 50000) :
    broadcastInDim S50000 ![] bcast_S_S50000 z (ix1 n) = z ix0 :=
  broadcastInDim_apply _ bcast_S_S50000 z _ _ fun a => a.elim0

/-- A vector over the edges laid as a one-column matrix. -/
theorem column_apply (r : S1250000.Idx → α) (e : Fin 1250000) (u : Fin 1) :
    broadcastInDim S1250000x1 ![0] bcast_S1250000_S1250000x1_0 r (ix2 e u) = r (ix1 e) :=
  broadcastInDim_apply _ bcast_S1250000_S1250000x1_0 r _ _ fun a => match a with
    | ⟨0, _⟩ => by show e.val = if (1250000 : Nat) = 1 then 0 else e.val; rw [if_neg (by decide)]

end Broadcasts

/-! ## A row number made non-negative -/

/-- The comparison with zero, the sum with the number of rows and the choice between the two, at an edge:
    the wrapped row number. -/
theorem wrap_apply (r : IVec S1250000 32) (e : Fin 1250000) :
    select (cmpi .slt r (broadcastInDim S1250000 ![] bcast_S_S1250000 (constantI S_ 32 0#32)))
        (addi r (broadcastInDim S1250000 ![] bcast_S_S1250000 (constantI S_ 32 50000#32))) r (ix1 e)
      = wrapBV (r (ix1 e)) := rfl

/-! ## Sums along the features -/

/-- The sum of a [50000, 64] matrix along its rows, from an initial value. -/
theorem reduceAdd_apply (X : FVec Ideal S50000x64 .f32) (v : FVec Ideal S_ .f32) (n : Fin 50000) :
    Host.reduceAdd (F := Ideal) X v reducesTo_S50000x64_S50000_d1 h_S_ (ix1 n) = v ix0 + ∑ k : Fin 64, X (ix2 n k) := by
  simp only [Host.reduceAdd, Ideal.hostReduceAdd_def]
  rw [Ideal.hostReduceAdd_single reducesTo_S50000x64_S50000_d1 (by decide)]
  refine congrArg₂ (· + ·) (congrArg v (funext fun a => a.elim0)) (Finset.sum_congr rfl fun k _ => ?_)
  exact congrArg X (funext fun a => Fin.ext (by match a with | ⟨0, _⟩ => rfl | ⟨1, _⟩ => rfl))

/-! ## The flat gather and the flat scatter-add -/

/-- A vector over the nodes gathered through a column of row numbers: at edge e, the entry at the row number
    clamped into the array. -/
theorem gather_apply {α : Type} (X : S50000.Idx → α) (idx : IVec S1250000x1 32) (e : Fin 1250000) :
    Host.gather gather_S50000_S1250000x1_S1250000_n_0_n_n_0_1_1 X idx (ix1 e)
      = X (ix1 (clampRow (idx (ix2 e (0 : Fin 1))))) :=
  Cert.GNN.VecIndex.gather_vec_apply (N := 50000) (E := 1250000) (by decide)
    gather_S50000_S1250000x1_S1250000_n_0_n_n_0_1_1_wf X idx e

/-- A vector over the edges added into a vector over the nodes through a column of row numbers: node n receives
    the entries of the edges whose row number, read signed, is n. -/
theorem scatterAdd_apply (X : FVec Ideal S50000 .f32) (idx : IVec S1250000x1 32) (U : FVec Ideal S1250000 .f32)
    (n : Fin 50000) :
    Host.scatterAdd (F := Ideal) scatter_S50000_S1250000x1_S1250000_n_0_0_1 X idx U (ix1 n)
      = X (ix1 n) + ∑ e ∈ Finset.univ.filter (fun e : Fin 1250000 => (idx (ix2 e (0 : Fin 1))).toInt = (n.val : Int)),
          U (ix1 e) :=
  Cert.GNN.VecIndex.host_scatterAdd_vec_apply (N := 50000) (E := 1250000)
    scatter_S50000_S1250000x1_S1250000_n_0_0_1_wf X idx U n

/-- The gather when the column's entry at edge e is a known word. -/
theorem gather_of {α : Type} (X : S50000.Idx → α) (idx : IVec S1250000x1 32) (e : Fin 1250000) (w : BitVec 32)
    (hidx : idx (ix2 e (0 : Fin 1)) = w) :
    Host.gather gather_S50000_S1250000x1_S1250000_n_0_n_n_0_1_1 X idx (ix1 e) = X (ix1 (clampRow w)) := by
  rw [gather_apply, hidx]

/-- The scatter-add when the column holds row 0 of the index array: node n receives the entries of its edges. -/
theorem scatterAdd_seg (edge : IVec S2x1250000 32) (X : FVec Ideal S50000 .f32) (idx : IVec S1250000x1 32)
    (U : FVec Ideal S1250000 .f32) (f : Fin 1250000 → EReal) (x0 : EReal) (n : Fin 50000)
    (hX : X (ix1 n) = x0) (hidx : ∀ e : Fin 1250000, idx (ix2 e (0 : Fin 1)) = edge (ix2 (0 : Fin 2) e))
    (hU : ∀ e : Fin 1250000, U (ix1 e) = f e) :
    Host.scatterAdd (F := Ideal) scatter_S50000_S1250000x1_S1250000_n_0_0_1 X idx U (ix1 n)
      = x0 + ∑ e ∈ seg (rowOf edge) n, f e := by
  rw [scatterAdd_apply, hX]
  refine congrArg (x0 + ·) (Finset.sum_congr ?_ fun e _ => hU e)
  unfold seg rowOf
  exact Finset.filter_congr fun e _ => by rw [hidx e]

/-! ## The statistics laid two edges to a row -/

section Pairs
variable {α : Type}

/-- A vector over the edges re-laid two to a row: entry (i, j) is entry 2 i + j. -/
theorem pair_apply (X : S1250000.Idx → α) (i : Fin 625000) (j : Fin 2) :
    shapeCast S625000x2 X shapeCasts_S1250000_S625000x2 (ix2 i j)
      = X (ix1 (⟨2 * i.val + j.val, by have := i.isLt; have := j.isLt; omega⟩ : Fin 1250000)) :=
  shapeCast_apply X _ _ _ (by
    rw [Shape.rowMajor_val_two, Shape.rowMajor_val_one]
    show 2 * i.val + j.val = i.val * 2 + j.val
    omega)

/-- Two [625000, 2] blocks side by side: the first two columns are the first block. -/
theorem concat_left_apply (a b : S625000x2.Idx → α) (i : Fin 625000) (j : Fin 2) :
    concatenate S625000x4 1 [⟨S625000x2, a⟩, ⟨S625000x2, b⟩] concatenates_S625000x2_S625000x2_S625000x4_d1
        (ix2 i (⟨j.val, by have := j.isLt; omega⟩ : Fin 4))
      = a (ix2 i j) :=
  concatenate_pair_apply_left (t := S625000x4) (s₁ := S625000x2) (s₂ := S625000x2) (1 : Fin 2) a b
    concatenates_S625000x2_S625000x2_S625000x4_d1 (ix2 i (⟨j.val, by have := j.isLt; omega⟩ : Fin 4)) rfl (ix2 i j)
    fun b => match b with
    | ⟨0, _⟩ => rfl
    | ⟨1, _⟩ => rfl

/-- The last two columns are the second block. -/
theorem concat_right_apply (a b : S625000x2.Idx → α) (i : Fin 625000) (j : Fin 2) :
    concatenate S625000x4 1 [⟨S625000x2, a⟩, ⟨S625000x2, b⟩] concatenates_S625000x2_S625000x2_S625000x4_d1
        (ix2 i (⟨2 + j.val, by have := j.isLt; omega⟩ : Fin 4))
      = b (ix2 i j) :=
  concatenate_pair_apply_right (t := S625000x4) (s₁ := S625000x2) (s₂ := S625000x2) (1 : Fin 2) a b
    concatenates_S625000x2_S625000x2_S625000x4_d1 (ix2 i (⟨2 + j.val, by have := j.isLt; omega⟩ : Fin 4)) rfl rfl (ix2 i j)
    (fun b hb => match b with
      | ⟨0, _⟩ => rfl
      | ⟨1, _⟩ => absurd rfl hb)
    (by show j.val + 2 = 2 + j.val; omega)

end Pairs

/-! ## The host's quotient and reciprocal square root, at an index -/

theorem hostDivf_apply {s : Shape} {φ : FTy} (a b : FVec Ideal s φ) (i : s.Idx) :
    Host.divf a b i = Ideal.div (a i) (b i) := rfl

theorem hostRsqrt_apply {s : Shape} {φ : FTy} (a : FVec Ideal s φ) (i : s.Idx) :
    Host.rsqrt a i = Ideal.rsqrt (a i) := rfl

end Cert.NbrNorm.KOps

end
-- ==== Proof.KHostReadB.lean ====
/-
  The per-edge statistics the kernel region reads, at an index.

  Before the region the host computes, for every node, the sum of its features and of their squares
  (rowSum, rowSq), the number of its edges (den), those sums added over its edges (s1, s2), the mean
  s1 / (64 den) and the variance max ((s2 - mean s1) / (64 den)) 0; then, for every edge, the mean and the
  reciprocal square root of variance + eps of the node the edge reads. The two per-edge vectors are re-laid two
  edges to a row and set side by side: columns 0, 1 of row i are the means of edges 2 i, 2 i + 1, columns 2, 3
  their reciprocal square roots. Each buffer along this chain is read at an index as the formula's value.
-/
import proofs.«141859_j10153302687998_2_alg».proof.Proof.KHostEqs
import proofs.«141859_j10153302687998_2_alg».proof.Proof.KOps
import proofs.«141859_j10153302687998_2_alg».proof.Proof.NbrSpec

noncomputable section

open scoped BigOperators

namespace Cert.NbrNorm.KHost

open Cert.KernelIdeal Cert.KernelIdeal.Gen Idealize.ShloMosaic Idealize.ShloMosaic.ValueIdx Cert.NbrNorm.KOps

variable (m : (ℓ : Loc nD τ sig) → Buf (Elt Ideal) ℓ) (c : Dev nD)

local notation "edge" => (V m c main_arg1 : IVec S2x1250000 32)
local notation "xF" => (fun (n : Fin 50000) (k : Fin 64) => (V m c main_arg0 : FVec Ideal S50000x64 FTy.f32) (ix2 n k))
local notation "Z" => Ideal.ofBits FTy.f32 0x00000000#32
local notation "O" => Ideal.ofBits FTy.f32 0x3F800000#32
local notation "CC" => Ideal.ofBits FTy.f32 0x42800000#32
local notation "EPS" => Ideal.ofBits FTy.f32 0x3727C5AC#32

/-! ## The two rows of the index array, flat and as columns -/

/-- Edge e's destination row number. -/
theorem v1_apply (e : Fin 1250000) : V m c main_v1 (ix1 e) = edge (ix2 (0 : Fin 2) e) := by
  rw [eq_main_v1, eq_main_v0]
  exact row0_apply _ e

/-- Edge e's source row number. -/
theorem v3_apply (e : Fin 1250000) : V m c main_v3 (ix1 e) = edge (ix2 (1 : Fin 2) e) := by
  rw [eq_main_v3, eq_main_v2]
  exact row1_apply _ e

/-- The destination row numbers as a column (the three copies the three scatter-adds take). -/
theorem v9_apply (e : Fin 1250000) (u : Fin 1) : V m c main_v9 (ix2 e u) = edge (ix2 (0 : Fin 2) e) := by
  rw [eq_main_v9]
  exact (column_apply _ e u).trans (v1_apply m c e)

theorem v21_apply (e : Fin 1250000) (u : Fin 1) : V m c main_v21 (ix2 e u) = edge (ix2 (0 : Fin 2) e) := by
  rw [eq_main_v21]
  exact (column_apply _ e u).trans (v1_apply m c e)

theorem v31_apply (e : Fin 1250000) (u : Fin 1) : V m c main_v31 (ix2 e u) = edge (ix2 (0 : Fin 2) e) := by
  rw [eq_main_v31]
  exact (column_apply _ e u).trans (v1_apply m c e)

/-! ## The row numbers made non-negative -/

/-- The source row numbers wrapped (first copy). -/
theorem v17_apply (e : Fin 1250000) : V m c main_v17 (ix1 e) = wrapBV (edge (ix2 (1 : Fin 2) e)) := by
  rw [eq_main_v17, eq_main_v14, eq_main_v16, eq_main_v13, eq_main_v15, eq_main_c, eq_main_c_4]
  exact (wrap_apply _ e).trans (congrArg wrapBV (v3_apply m c e))

/-- The source row numbers wrapped (second copy). -/
theorem v27_apply (e : Fin 1250000) : V m c main_v27 (ix1 e) = wrapBV (edge (ix2 (1 : Fin 2) e)) := by
  rw [eq_main_v27, eq_main_v24, eq_main_v26, eq_main_v23, eq_main_v25, eq_main_c_6, eq_main_c_7]
  exact (wrap_apply _ e).trans (congrArg wrapBV (v3_apply m c e))

/-- The destination row numbers wrapped (first copy). -/
theorem v45_apply (e : Fin 1250000) : V m c main_v45 (ix1 e) = wrapBV (edge (ix2 (0 : Fin 2) e)) := by
  rw [eq_main_v45, eq_main_v42, eq_main_v44, eq_main_v41, eq_main_v43, eq_main_c_11, eq_main_c_12]
  exact (wrap_apply _ e).trans (congrArg wrapBV (v1_apply m c e))

/-- The destination row numbers wrapped (second copy). -/
theorem v52_apply (e : Fin 1250000) : V m c main_v52 (ix1 e) = wrapBV (edge (ix2 (0 : Fin 2) e)) := by
  rw [eq_main_v52, eq_main_v49, eq_main_v51, eq_main_v48, eq_main_v50, eq_main_c_13, eq_main_c_14]
  exact (wrap_apply _ e).trans (congrArg wrapBV (v1_apply m c e))

/-! ## The constants repeated -/

theorem v7_apply (e : Fin 1250000) : V m c main_v7 (ix1 e) = O := by
  rw [eq_main_v7, eq_main_cst_1]
  exact splatE_apply _ e

theorem v8_apply (n : Fin 50000) : V m c main_v8 (ix1 n) = Z := by
  rw [eq_main_v8, eq_main_cst_2]
  exact splatN_apply _ n

theorem v11_apply (n : Fin 50000) : V m c main_v11 (ix1 n) = O := by
  rw [eq_main_v11, eq_main_cst_3]
  exact splatN_apply _ n

theorem v20_apply (n : Fin 50000) : V m c main_v20 (ix1 n) = Z := by
  rw [eq_main_v20, eq_main_cst_5]
  exact splatN_apply _ n

theorem v30_apply (n : Fin 50000) : V m c main_v30 (ix1 n) = Z := by
  rw [eq_main_v30, eq_main_cst_8]
  exact splatN_apply _ n

theorem v33_apply (n : Fin 50000) : V m c main_v33 (ix1 n) = CC := by
  rw [eq_main_v33, eq_main_cst_9]
  exact splatN_apply _ n

theorem v39_apply (n : Fin 50000) : V m c main_v39 (ix1 n) = Z := by
  rw [eq_main_v39, eq_main_cst_10]
  exact splatN_apply _ n

theorem v55_apply (e : Fin 1250000) : V m c main_v55 (ix1 e) = EPS := by
  rw [eq_main_v55, eq_main_cst_15]
  exact splatE_apply _ e

/-! ## The per-node sums -/

/-- A node's sum of features. -/
theorem v4_apply (n : Fin 50000) : V m c main_v4 (ix1 n) = rowSum xF Z n := by
  rw [eq_main_v4]
  refine (reduceAdd_apply _ _ n).trans ?_
  rw [eq_main_cst]
  rfl

/-- A node's sum of squared features. -/
theorem v6_apply (n : Fin 50000) : V m c main_v6 (ix1 n) = rowSq xF Z n := by
  rw [eq_main_v6]
  refine (reduceAdd_apply _ _ n).trans ?_
  rw [eq_main_cst_0, eq_main_v5]
  rfl

/-- The number of a node's edges, from zero. -/
theorem v10_apply (n : Fin 50000) : V m c main_v10 (ix1 n) = Z + ∑ _e ∈ seg (rowOf edge) n, O := by
  rw [eq_main_v10]
  exact scatterAdd_seg edge _ _ _ (fun _ => O) Z n (v8_apply m c n) (fun e => v9_apply m c e 0) (v7_apply m c)

/-- The number of a node's edges, at least one. -/
theorem v12_apply (n : Fin 50000) : V m c main_v12 (ix1 n) = den (rowOf edge) Z O n := by
  rw [eq_main_v12]
  refine (maximumf_apply _ _ _).trans ?_
  rw [v10_apply, v11_apply]
  rfl

/-- The sum of features of the source of edge e. -/
theorem v19_apply (e : Fin 1250000) : V m c main_v19 (ix1 e) = rowSum xF Z (gcOf edge e) := by
  rw [eq_main_v19]
  refine (gather_of _ _ e (wrapBV (edge (ix2 (1 : Fin 2) e))) ?_).trans (v4_apply m c _)
  rw [eq_main_v18]
  exact (column_apply _ e 0).trans (v17_apply m c e)

/-- Those sums added over a node's edges. -/
theorem v22_apply (n : Fin 50000) : V m c main_v22 (ix1 n) = s1 (rowOf edge) (gcOf edge) xF Z n := by
  rw [eq_main_v22]
  exact scatterAdd_seg edge _ _ _ (fun e => rowSum xF Z (gcOf edge e)) Z n (v20_apply m c n)
    (fun e => v21_apply m c e 0) (v19_apply m c)

/-- The sum of squared features of the source of edge e. -/
theorem v29_apply (e : Fin 1250000) : V m c main_v29 (ix1 e) = rowSq xF Z (gcOf edge e) := by
  rw [eq_main_v29]
  refine (gather_of _ _ e (wrapBV (edge (ix2 (1 : Fin 2) e))) ?_).trans (v6_apply m c _)
  rw [eq_main_v28]
  exact (column_apply _ e 0).trans (v27_apply m c e)

/-- Those sums added over a node's edges. -/
theorem v32_apply (n : Fin 50000) : V m c main_v32 (ix1 n) = s2 (rowOf edge) (gcOf edge) xF Z n := by
  rw [eq_main_v32]
  exact scatterAdd_seg edge _ _ _ (fun e => rowSq xF Z (gcOf edge e)) Z n (v30_apply m c n)
    (fun e => v31_apply m c e 0) (v29_apply m c)

/-! ## The per-node mean and variance -/

/-- The number of summands of a node. -/
theorem v34_apply (n : Fin 50000) : V m c main_v34 (ix1 n) = fden (rowOf edge) Z O CC n := by
  rw [eq_main_v34]
  refine (mulf_apply _ _ _).trans ?_
  rw [v33_apply, v12_apply]
  rfl

/-- A node's mean. -/
theorem v35_apply (n : Fin 50000) : V m c main_v35 (ix1 n) = meanK (rowOf edge) (gcOf edge) xF Z O CC n := by
  rw [eq_main_v35]
  refine (hostDivf_apply _ _ _).trans ?_
  rw [v22_apply, v34_apply]
  rfl

/-- The mean times the sum. -/
theorem v36_apply (n : Fin 50000) :
    V m c main_v36 (ix1 n) = meanK (rowOf edge) (gcOf edge) xF Z O CC n * s1 (rowOf edge) (gcOf edge) xF Z n := by
  rw [eq_main_v36]
  refine (mulf_apply _ _ _).trans ?_
  rw [v35_apply, v22_apply]

/-- The sum of squares less that. -/
theorem v37_apply (n : Fin 50000) :
    V m c main_v37 (ix1 n) = s2 (rowOf edge) (gcOf edge) xF Z n
      - meanK (rowOf edge) (gcOf edge) xF Z O CC n * s1 (rowOf edge) (gcOf edge) xF Z n := by
  rw [eq_main_v37]
  refine (subf_apply _ _ _).trans ?_
  rw [v32_apply, v36_apply]

/-- That over the number of summands. -/
theorem v38_apply (n : Fin 50000) :
    V m c main_v38 (ix1 n) = Ideal.div (s2 (rowOf edge) (gcOf edge) xF Z n
      - meanK (rowOf edge) (gcOf edge) xF Z O CC n * s1 (rowOf edge) (gcOf edge) xF Z n) (fden (rowOf edge) Z O CC n) := by
  rw [eq_main_v38]
  refine (hostDivf_apply _ _ _).trans ?_
  rw [v37_apply, v34_apply]

/-- A node's variance. -/
theorem v40_apply (n : Fin 50000) : V m c main_v40 (ix1 n) = varK (rowOf edge) (gcOf edge) xF Z O CC n := by
  rw [eq_main_v40]
  refine (maximumf_apply _ _ _).trans ?_
  rw [v38_apply, v39_apply]
  rfl

/-! ## The per-edge statistics -/

/-- The mean of the node edge e reads. -/
theorem v47_apply (e : Fin 1250000) :
    V m c main_v47 (ix1 e) = meanK (rowOf edge) (gcOf edge) xF Z O CC (grOf edge e) := by
  rw [eq_main_v47]
  refine (gather_of _ _ e (wrapBV (edge (ix2 (0 : Fin 2) e))) ?_).trans (v35_apply m c _)
  rw [eq_main_v46]
  exact (column_apply _ e 0).trans (v45_apply m c e)

/-- The variance of the node edge e reads. -/
theorem v54_apply (e : Fin 1250000) :
    V m c main_v54 (ix1 e) = varK (rowOf edge) (gcOf edge) xF Z O CC (grOf edge e) := by
  rw [eq_main_v54]
  refine (gather_of _ _ e (wrapBV (edge (ix2 (0 : Fin 2) e))) ?_).trans (v40_apply m c _)
  rw [eq_main_v53]
  exact (column_apply _ e 0).trans (v52_apply m c e)

/-- The variance of the node edge e reads, eps added. -/
theorem v56_apply (e : Fin 1250000) :
    V m c main_v56 (ix1 e) = varK (rowOf edge) (gcOf edge) xF Z O CC (grOf edge e) + EPS := by
  rw [eq_main_v56]
  refine (addf_apply _ _ _).trans ?_
  rw [v54_apply, v55_apply]

/-- Its reciprocal square root. -/
theorem v57_apply (e : Fin 1250000) :
    V m c main_v57 (ix1 e) = Ideal.rsqrt (varK (rowOf edge) (gcOf edge) xF Z O CC (grOf edge e) + EPS) := by
  rw [eq_main_v57]
  refine (hostRsqrt_apply _ _).trans ?_
  rw [v56_apply]

/-! ## Two edges to a row, the two statistics side by side -/

theorem v66_apply (i : Fin 625000) (j : Fin 2) :
    V m c main_v66 (ix2 i j) = meanK (rowOf edge) (gcOf edge) xF Z O CC
      (grOf edge ⟨2 * i.val + j.val, by have := i.isLt; have := j.isLt; omega⟩) := by
  rw [eq_main_v66]
  exact (pair_apply _ i j).trans (v47_apply m c _)

theorem v67_apply (i : Fin 625000) (j : Fin 2) :
    V m c main_v67 (ix2 i j) = Ideal.rsqrt (varK (rowOf edge) (gcOf edge) xF Z O CC
      (grOf edge ⟨2 * i.val + j.val, by have := i.isLt; have := j.isLt; omega⟩) + EPS) := by
  rw [eq_main_v67]
  exact (pair_apply _ i j).trans (v57_apply m c _)

/-- Columns 0 and 1 of the statistics block: the means of the nodes that edges 2 i and 2 i + 1 read. -/
theorem stats_mean_apply (i : Fin 625000) (j : Fin 2) :
    V m c main_v68 (ix2 i (⟨j.val, by have := j.isLt; omega⟩ : Fin 4))
      = meanK (rowOf edge) (gcOf edge) xF Z O CC
          (grOf edge ⟨2 * i.val + j.val, by have := i.isLt; have := j.isLt; omega⟩) := by
  rw [eq_main_v68]
  exact (concat_left_apply _ _ i j).trans (v66_apply m c i j)

/-- Columns 2 and 3: the reciprocal square roots of their variances, eps added. -/
theorem stats_inv_apply (i : Fin 625000) (j : Fin 2) :
    V m c main_v68 (ix2 i (⟨2 + j.val, by have := j.isLt; omega⟩ : Fin 4))
      = Ideal.rsqrt (varK (rowOf edge) (gcOf edge) xF Z O CC
          (grOf edge ⟨2 * i.val + j.val, by have := i.isLt; have := j.isLt; omega⟩) + EPS) := by
  rw [eq_main_v68]
  exact (concat_right_apply _ _ i j).trans (v67_apply m c i j)

end Cert.NbrNorm.KHost

end
-- ==== Proof.lean ====
/-
  Neighbour normalisation on a graph with 50000 nodes of 64 features and 1250000 edges: a one-pass program with a
  lane-dense normalising region against the two-pass formula.

  For every edge e, with destination row number row e and source col e, both programs return
      gamma f * ((x[col e, f] - mean[row e]) / sqrt (var[row e] + eps)) + beta f,
  where mean and var of a node are taken over all 64 features of all the edges whose destination is the node.
  The two-pass program averages per feature over the node's edges, then over the features, and takes the variance
  from the squared deviations.  The one-pass program first sums each node's features and squared features, adds
  those sums over the node's edges, takes  var = (S2 - mean * S1) / (64 * count)  clamped at zero, multiplies by the
  reciprocal square root, and does the final arithmetic two edges per 128-lane row: row i of the paired array holds
  edge 2 i in lanes 0..63 and edge 2 i + 1 in lanes 64..127, with the two edges' statistics in four columns.

  On finite features the two are one function of the inputs, index by index:
  * mean: the double sum over edges and features may be taken in either order, and dividing by the count and then
    by 64 is dividing by 64 * count;
  * variance: the sum of squared deviations is S2 - 2 mean S1 + 64 count mean^2, and 64 count mean^2 = mean S1
    (either the node has an edge, and 64 count mean = S1, or it has none and both sides are zero); it is a sum of
    squares over a positive number, so the clamp at zero changes nothing;
  * the quotient by a positive square root is the product with the reciprocal square root.
  An edge of a node has a row number in range, so the wrapped and clamped row the statistics are gathered at is the
  node itself; index words out of range are treated alike by both programs.

  The region's result is read off its frame run block by block (125 blocks of 5000 paired rows cover the array),
  the host operations before it are read one operation at a time, and the last re-laying is read at an index.
-/
import proofs.«141859_j10153302687998_2_alg».proof.Defs
import proofs.«141859_j10153302687998_2_alg».proof.Proof.Gen.Kernel
import proofs.«141859_j10153302687998_2_alg».proof.Proof.Gen.Kernel.Skeleton
import proofs.«141859_j10153302687998_2_alg».proof.Proof.Gen.Kernel.Launch
import proofs.«141859_j10153302687998_2_alg».proof.Proof.Gen.Kernel.Points
import proofs.«141859_j10153302687998_2_alg».proof.Proof.Gen.Kernel.Frame
import proofs.«141859_j10153302687998_2_alg».proof.Proof.Gen.KernelIdeal
import proofs.«141859_j10153302687998_2_alg».proof.Proof.Gen.KernelIdeal.Skeleton
import proofs.«141859_j10153302687998_2_alg».proof.Proof.Gen.KernelIdeal.Launch
import proofs.«141859_j10153302687998_2_alg».proof.Proof.Gen.KernelIdeal.Points
import proofs.«141859_j10153302687998_2_alg».proof.Proof.Gen.KernelIdeal.Frame
import proofs.«141859_j10153302687998_2_alg».proof.Proof.Gen.ReferenceIdeal
import proofs.«141859_j10153302687998_2_alg».proof.Proof.Gen.ReferenceIdeal.Run
import proofs.«141859_j10153302687998_2_alg».proof.Proof.Gen.ReferenceIdeal.Read
import proofs.«141859_j10153302687998_2_alg».proof.Proof.Gen.Pre_finite_inputs
import proofs.«141859_j10153302687998_2_alg».proof.Proof.NbrAlgebra
import proofs.«141859_j10153302687998_2_alg».proof.Proof.RefValue
import proofs.«141859_j10153302687998_2_alg».proof.Proof.PreFacts
import proofs.«141859_j10153302687998_2_alg».proof.Proof.KValue
import proofs.«141859_j10153302687998_2_alg».proof.Proof.KJoin
import proofs.«141859_j10153302687998_2_alg».proof.Proof.KHostReadA
import proofs.«141859_j10153302687998_2_alg».proof.Proof.KHostReadB
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.TcCoe

/-! ## The two results are one function -/

section Value

open Cert.KernelIdeal Cert.KernelIdeal.Gen

variable (m : (ℓ : Loc nD τ sig) → Buf (Elt Ideal) ℓ)

/-- On finite features the one-pass program's result at edge e, feature f, is the two-pass formula's: the region's
    value at paired row e / 2, lane 64 (e mod 2) + f, is the one-pass formula at (e, f), which the algebra joins
    to the two-pass formula, which the reference's last stage is. -/
theorem kernel_value (hpre : Cert.Pre_KernelIdeal m) (c : Dev nD) (e : Fin 1250000) (f : Fin 64) :
    Pipeline.afterTail₀ cfgs (dats m) 0 (V0 m) [hostOps1] c main_v76 (ix2 e f)
      = Cert.ReferenceIdeal.Read.val_main_v63 (F := Ideal) (m ((c : Thread nD τ).loc main_arg0))
          (m ((c : Thread nD τ).loc main_arg1)) (m ((c : Thread nD τ).loc main_arg2))
          (m ((c : Thread nD τ).loc main_arg3)) (ix2 e f) := by
  rw [Cert.NbrNorm.KValue.result_apply m c e f,
    Cert.NbrNorm.KJoin.normAt_eq_kerOut (V m c main_v65) (V m c main_v68) (V m c main_v71) (V m c main_v74)
      (V m c main_arg0) (V m c main_arg1) (V m c main_arg2) (V m c main_arg3)
      (Ideal.ofBits .f32 0x00000000#32) (Ideal.ofBits .f32 0x3F800000#32) (Ideal.ofBits .f32 0x42800000#32)
      (Ideal.ofBits .f32 0x3727C5AC#32)
      (Cert.NbrNorm.KHost.xc2_apply m c) (Cert.NbrNorm.KHost.stats_mean_apply m c)
      (Cert.NbrNorm.KHost.stats_inv_apply m c) (Cert.NbrNorm.KHost.gamma2_apply m c)
      (Cert.NbrNorm.KHost.beta2_apply m c) e f,
    V_main_arg0, V_main_arg1, V_main_arg2, V_main_arg3, Cert.NbrNorm.Ref.val_eq_refOut]
  exact Cert.NbrNorm.kerOut_eq_refOut _ _ _ _ _ _ _ _ _ _
    (fun n k => Cert.NbrNorm.Pre.x_real _ _ _ _ (hpre c) (ix2 n k))
    Ideal.ofBits_zero_f32 LibFinite.f32_one Cert.NbrNorm.Pre.c64_eq (by norm_num) Cert.NbrNorm.Pre.eps_pos
    (Cert.NbrNorm.Pre.gr_of_row _) e f

end Value

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the program was idealized. -/
theorem preserves : Cert.preserves_Kernel_KernelIdeal := trivial

/-- From memories agreeing on the inputs both programs end, the one-pass program's result buffer at what its last
    re-laying leaves of the region's array, the reference's at its last stage: equal entry by entry. -/
theorem algebraic : Cert.algebraic_KernelIdeal_ReferenceIdeal := by
  intro m ρ m' ρ' hpre hagree
  refine ⟨fun c => Pipeline.afterTail₀ Cert.KernelIdeal.cfgs (Cert.KernelIdeal.Gen.dats m) 0
    (Cert.KernelIdeal.Gen.V0 m) [Cert.KernelIdeal.Gen.hostOps1] c Cert.KernelIdeal.main_v76, ?_, ?_⟩
  · refine (θ_run Cert.KernelIdeal.defs _ _).mono (fun r h c => ⟨?_, ?_, ?_, ?_, ?_⟩)
      (Cert.KernelIdeal.Gen.run_main m ρ)
    · exact (h c).2 Cert.KernelIdeal.main_v76
        (Pipeline.mem_restRefs_of Cert.KernelIdeal.main_v76 (by decide) (by decide))
    · exact ((h c).2 Cert.KernelIdeal.main_arg0
        (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2
        (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3
        (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2]
    funext i
    obtain ⟨e, f, rfl⟩ : ∃ (e : Fin 1250000) (f : Fin 64), i = ix2 e f := ⟨i 0, i 1, eq_ix2 i⟩
    exact (kernel_value m hpre c e f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
